-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S128x16 .f32) (main_arg10 : FVec F S16 .f32) (main_v33 : IVec S_ 1) : IVec S_ 1 :=
  let main_v34 : FVec F S128x16 .f32 := Host.absf main_arg9
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x16 .f32) (main_arg10 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x16 .f32) (main_arg10 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S1x16 : Shape := ⟨2, ![1, 16]⟩
abbrev S64x16 : Shape := ⟨2, ![64, 16]⟩

abbrev nBuf : Space → Nat
  | .hbm => 126
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x16, .f32⟩
  | .hbm, ⟨10, _⟩ => ⟨S16, .f32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S850000x1, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S850000x1, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .f32⟩
  | .hbm, ⟨81, _⟩ => ⟨S850000x128, .f32⟩
  | .hbm, ⟨82, _⟩ => ⟨S850000x128, .f32⟩
  | .hbm, ⟨83, _⟩ => ⟨S_, .f32⟩
  | .hbm, ⟨84, _⟩ => ⟨S50000x128, .f32⟩
  | .hbm, ⟨85, _⟩ => ⟨S850000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S850000x1, .f32⟩
  | .hbm, ⟨91, _⟩ => ⟨S_, .i32⟩
  | .hbm, ⟨92, _⟩ => ⟨S850000, .i32⟩
  | .hbm, ⟨93, _⟩ => ⟨S850000, .i1⟩
  | .hbm, ⟨94, _⟩ => ⟨S_, .i32⟩
  | .hbm, ⟨95, _⟩ => ⟨S850000, .i32⟩
  | .hbm, ⟨96, _⟩ => ⟨S850000, .i32⟩
  | .hbm, ⟨97, _⟩ => ⟨S850000, .i32⟩
  | .hbm, ⟨98, _⟩ => ⟨S850000x1, .i32⟩
  | .hbm, ⟨99, _⟩ => ⟨S850000x128, .f32⟩
  | .hbm, ⟨100, _⟩ => ⟨S850000x128, .f32⟩
  | .hbm, ⟨101, _⟩ => ⟨S850000x128, .f32⟩
  | .hbm, ⟨102, _⟩ => ⟨S_, .f32⟩
  | .hbm, ⟨103, _⟩ => ⟨S50000x128, .f32⟩
  | .hbm, ⟨104, _⟩ => ⟨S850000x1, .i32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S_, .f32⟩
  | .hbm, ⟨109, _⟩ => ⟨S64x128, .f32⟩
  | .hbm, ⟨110, _⟩ => ⟨S50000x1, .i32⟩
  | .hbm, ⟨111, _⟩ => ⟨S64x128, .f32⟩
  | .hbm, ⟨112, _⟩ => ⟨S_, .f32⟩
  | .hbm, ⟨113, _⟩ => ⟨S50000, .f32⟩
  | .hbm, ⟨114, _⟩ => ⟨S_, .f32⟩
  | .hbm, ⟨115, _⟩ => ⟨S64, .f32⟩
  | .hbm, ⟨116, _⟩ => ⟨S50000x1, .i32⟩
  | .hbm, ⟨117, _⟩ => ⟨S64, .f32⟩
  | .hbm, ⟨118, _⟩ => ⟨S_, .f32⟩
  | .hbm, ⟨119, _⟩ => ⟨S64, .f32⟩
  | .hbm, ⟨120, _⟩ => ⟨S64, .f32⟩
  | .hbm, ⟨121, _⟩ => ⟨S64x1, .f32⟩
  | .hbm, ⟨122, _⟩ => ⟨S64x128, .f32⟩
  | .hbm, ⟨123, _⟩ => ⟨S64x128, .f32⟩
  | .hbm, ⟨124, _⟩ => ⟨S1x16, .f32⟩
  | .hbm, ⟨125, _⟩ => ⟨S64x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S64x128, .f32⟩
  | .local _ .vmem, ⟨31, _⟩ => ⟨S128x16, .f32⟩
  | .local _ .vmem, ⟨32, _⟩ => ⟨S1x16, .f32⟩
  | .local _ .vmem, ⟨33, _⟩ => ⟨S64x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_12 : Ref sig .tc := ⟨.hbm, 91, rfl⟩
abbrev main_v64 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S64x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x16 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S16_S1x16 : S16.ShapeCasts S1x16
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  reduces_S64x16_S64 : S64x16.Reduces [1] S64
  shapeCasts_S64_S64x1 : S64.ShapeCasts S64x1
  broadcasts_S64x1_S64x16 : S64x1.Broadcasts S64x16
  inb_S64x16_S64x16_0_0 : ∀ a, (![0, 0] : Fin 2 → Nat) a + S64x16.size a ≤ S64x16.size a
  h_S64x16 : 0 < S64x16.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x16_S64x16_1_0_0_1_n_n_wf : DotDims.WF S64x128 S128x16 S64x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S64x128.size a ≤ S64x128.size a
  hwx6_0 : ∀ i : grid6.Coords, EltTy.bits .f32 = 32 ∨ (Rect.block (s := S64x128) S64x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x16.size a ≤ S128x16.size a
  hwx6_1 : ∀ i : grid6.Coords, EltTy.bits .f32 = 32 ∨ (Rect.block (s := S128x16) S128x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x16.size a ≤ S1x16.size a
  hwx6_2 : ∀ i : grid6.Coords, EltTy.bits .f32 = 32 ∨ (Rect.block (s := S1x16) S1x16.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x16.size a ≤ S64x16.size a
  hwx6_3 : ∀ i : grid6.Coords, EltTy.bits .f32 = 32 ∨ (Rect.block (s := S64x16) S64x16.size (cc6_transform_3 i) (hinb6_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v89) S64x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v90) S1x16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v91) S64x16.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S64x16 : Shape := ⟨2, ![64, 16]⟩
abbrev S1x16 : Shape := ⟨2, ![1, 16]⟩

abbrev nBuf : Space → Nat
  | .hbm => 151
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x16, .f32⟩
  | 10 => ⟨S16, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x128, .f32⟩
  | 52 => ⟨S850000x1, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S850000x1, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000x128, .f32⟩
  | 85 => ⟨S850000x128, .f32⟩
  | 86 => ⟨S850000x128, .f32⟩
  | 87 => ⟨S_, .f32⟩
  | 88 => ⟨S50000x128, .f32⟩
  | 89 => ⟨S850000x1, .i32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x128, .f32⟩
  | 98 => ⟨S850000x1, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000x128, .f32⟩
  | 108 => ⟨S850000x128, .f32⟩
  | 109 => ⟨S850000x128, .f32⟩
  | 110 => ⟨S_, .f32⟩
  | 111 => ⟨S50000x128, .f32⟩
  | 112 => ⟨S850000x1, .i32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S64x128, .f32⟩
  | 119 => ⟨S50000x1, .i32⟩
  | 120 => ⟨S64x128, .f32⟩
  | 121 => ⟨S_, .f32⟩
  | 122 => ⟨S50000, .f32⟩
  | 123 => ⟨S_, .f32⟩
  | 124 => ⟨S64, .f32⟩
  | 125 => ⟨S50000x1, .i32⟩
  | 126 => ⟨S64, .f32⟩
  | 127 => ⟨S_, .f32⟩
  | _ => ⟨S50000x128, .f32⟩

abbrev hbmTy0_1 (i : Nat) : BufTy := match i % 128 with
  | 0 => ⟨S64, .f32⟩
  | 1 => ⟨S64, .f32⟩
  | 2 => ⟨S64x1, .f32⟩
  | 3 => ⟨S64x128, .f32⟩
  | 4 => ⟨S64x128, .f32⟩
  | 5 => ⟨S64x16, .f32⟩
  | 6 => ⟨S1x16, .f32⟩
  | 7 => ⟨S64x16, .f32⟩
  | 8 => ⟨S64x16, .f32⟩
  | 9 => ⟨S_, .f32⟩
  | 10 => ⟨S64, .f32⟩
  | 11 => ⟨S_, .f32⟩
  | 12 => ⟨S64, .f32⟩
  | 13 => ⟨S64, .f32⟩
  | 14 => ⟨S64x1, .f32⟩
  | 15 => ⟨S64x16, .f32⟩
  | 16 => ⟨S64x16, .f32⟩
  | 17 => ⟨S64x16, .f32⟩
  | 18 => ⟨S_, .f32⟩
  | 19 => ⟨S64, .f32⟩
  | 20 => ⟨S64x1, .f32⟩
  | 21 => ⟨S64x16, .f32⟩
  | 22 => ⟨S64x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_9 : Ref sig .tc := ⟨.hbm, 76, rfl⟩
abbrev main_v50 : Ref sig .tc := ⟨.hbm, 77, rfl⟩
abbrev main_v51 : Ref sig .tc := ⟨.hbm, 78, rfl⟩
abbrev main_c_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_12 : Ref sig .tc := ⟨.hbm, 99, rfl⟩
abbrev main_v68 : Ref sig .tc := ⟨.hbm, 100, rfl⟩
abbrev main_v69 : Ref sig .tc := ⟨.hbm, 101, rfl⟩
abbrev main_c_13 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_15 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_16 : Ref sig .tc := ⟨.hbm, 121, rfl⟩
abbrev main_v86 : Ref sig .tc := ⟨.hbm, 122, rfl⟩
abbrev main_cst_17 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_18 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_19 : Ref sig .tc := ⟨.hbm, 137, rfl⟩
abbrev main_v99 : Ref sig .tc := ⟨.hbm, 138, rfl⟩
abbrev main_cst_20 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_21 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  reducesTo_S64x16_S64_d1 : S64x16.ReducesTo [1] S64
  h_S_ : 0 < S_.numel
  bcast_S64x1_S64x16_0_1 : S64x1.BroadcastsInDim S64x16 (![0, 1] : Fin 2 → Fin S64x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x16_S64x16_1_0_0_1_n_n_wf : DotDims.WF S64x128 S128x16 S64x16 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

class Facts : Prop extends Facts₀ where

variable [Facts]
-- ==== Proof.KRun.lean ====
/-
  The idealized kernel's run with its RESULT named.

  The program is seven pipelined regions among stretches of host operations. Its generated frame certificate
  runs the segments one after another and keeps, at every boundary, the contents of every unscoped buffer as a
  fold from the launch memory; the last boundary's contents are `W14`. Read against the final state, that fold
  gives the result buffer too, not only the arguments: the result array ends at `W14` of its buffer, and the
  arguments end as launched.
-/
import proofs.«110101_j3788161155718_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v91) = W14 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v91 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)

end Cert.KernelIdeal.Hand

end
-- ==== Proof.KWalk.lean ====
/-
  Buffers that a stretch of the program leaves alone.

  The program's buffer contents at each boundary between its segments are a fold from the launch memory: a stretch of
  host operations rewrites the buffers its operations write, a pipelined region rewrites its own arrays, and every
  other buffer keeps what it held. Read at a buffer that no segment up to a boundary writes, the fold walks back to
  the launch memory: each argument array is still as launched at the boundary where it is read. Read at the edge
  lists and at the edge weights, which the first stretches compute, it walks back to the boundary after those
  stretches: the three later aggregation stretches read the same three arrays.
-/
import proofs.«110101_j3788161155718_1_alg».proof.Proof.Gen.KernelIdeal.Frame
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- One step back through the boundaries, at a buffer the step does not write: a host stretch read operation by
    operation, a region by the fact that the buffer is none of its arrays. -/
macro "walk_step" : tactic => `(tactic| first
  | (unfold W13; after_results_simp)
  | (unfold W11; after_results_simp)
  | (unfold W8; after_results_simp)
  | (unfold W5; after_results_simp)
  | (unfold W3; after_results_simp)
  | (unfold W2; after_results_simp)
  | (unfold W1; after_results_simp)
  | (rw [W14_of_ne]; rotate_left; decide)
  | (rw [W12_of_ne]; rotate_left; decide)
  | (rw [W10_of_ne]; rotate_left; decide)
  | (rw [W9_of_ne]; rotate_left; decide)
  | (rw [W7_of_ne]; rotate_left; decide)
  | (rw [W6_of_ne]; rotate_left; decide)
  | (rw [W4_of_ne]; rotate_left; decide))

/-! ## The arguments, each at the boundary where it is read -/

theorem W3_arg0 : W3 m ρ c (Proc.devRef .tc main_arg0) = m ((c : Thread nD τ).loc main_arg0) := by
  repeat walk_step
theorem W3_arg3 : W3 m ρ c (Proc.devRef .tc main_arg3) = m ((c : Thread nD τ).loc main_arg3) := by
  repeat walk_step
theorem W4_arg4 : W4 m ρ c (Proc.devRef .tc main_arg4) = m ((c : Thread nD τ).loc main_arg4) := by
  repeat walk_step
theorem W6_arg5 : W6 m ρ c (Proc.devRef .tc main_arg5) = m ((c : Thread nD τ).loc main_arg5) := by
  repeat walk_step
theorem W7_arg6 : W7 m ρ c (Proc.devRef .tc main_arg6) = m ((c : Thread nD τ).loc main_arg6) := by
  repeat walk_step
theorem W9_arg7 : W9 m ρ c (Proc.devRef .tc main_arg7) = m ((c : Thread nD τ).loc main_arg7) := by
  repeat walk_step
theorem W10_arg8 : W10 m ρ c (Proc.devRef .tc main_arg8) = m ((c : Thread nD τ).loc main_arg8) := by
  repeat walk_step
theorem W12_arg2 : W12 m ρ c (Proc.devRef .tc main_arg2) = m ((c : Thread nD τ).loc main_arg2) := by
  repeat walk_step
theorem W12_arg10 : W12 m ρ c (Proc.devRef .tc main_arg10) = m ((c : Thread nD τ).loc main_arg10) := by
  repeat walk_step
theorem W13_arg9 : W13 m ρ c (Proc.devRef .tc main_arg9) = m ((c : Thread nD τ).loc main_arg9) := by
  repeat walk_step

/-! ## The two edge lists and the edge weights, at the three later boundaries where they are read -/

theorem W4_keep_v29 : W4 m ρ c (Proc.devRef .tc main_v29) = W3 m ρ c (Proc.devRef .tc main_v29) :=
  W4_of_ne m ρ c main_v29 (by decide)
theorem W5_keep_v29 : W5 m ρ c (Proc.devRef .tc main_v29) = W4 m ρ c (Proc.devRef .tc main_v29) := by
  unfold W5; after_results_simp
theorem W7_keep_v29 : W7 m ρ c (Proc.devRef .tc main_v29) = W3 m ρ c (Proc.devRef .tc main_v29) :=
  (W7_of_ne m ρ c main_v29 (by decide)).trans ((W6_of_ne m ρ c main_v29 (by decide)).trans
    ((W5_keep_v29 m ρ c).trans (W4_keep_v29 m ρ c)))
theorem W8_keep_v29 : W8 m ρ c (Proc.devRef .tc main_v29) = W7 m ρ c (Proc.devRef .tc main_v29) := by
  unfold W8; after_results_simp
theorem W10_keep_v29 : W10 m ρ c (Proc.devRef .tc main_v29) = W3 m ρ c (Proc.devRef .tc main_v29) :=
  (W10_of_ne m ρ c main_v29 (by decide)).trans ((W9_of_ne m ρ c main_v29 (by decide)).trans
    ((W8_keep_v29 m ρ c).trans (W7_keep_v29 m ρ c)))

theorem W4_keep_v3 : W4 m ρ c (Proc.devRef .tc main_v3) = W3 m ρ c (Proc.devRef .tc main_v3) :=
  W4_of_ne m ρ c main_v3 (by decide)
theorem W5_keep_v3 : W5 m ρ c (Proc.devRef .tc main_v3) = W4 m ρ c (Proc.devRef .tc main_v3) := by
  unfold W5; after_results_simp
theorem W7_keep_v3 : W7 m ρ c (Proc.devRef .tc main_v3) = W3 m ρ c (Proc.devRef .tc main_v3) :=
  (W7_of_ne m ρ c main_v3 (by decide)).trans ((W6_of_ne m ρ c main_v3 (by decide)).trans
    ((W5_keep_v3 m ρ c).trans (W4_keep_v3 m ρ c)))
theorem W8_keep_v3 : W8 m ρ c (Proc.devRef .tc main_v3) = W7 m ρ c (Proc.devRef .tc main_v3) := by
  unfold W8; after_results_simp
theorem W10_keep_v3 : W10 m ρ c (Proc.devRef .tc main_v3) = W3 m ρ c (Proc.devRef .tc main_v3) :=
  (W10_of_ne m ρ c main_v3 (by decide)).trans ((W9_of_ne m ρ c main_v3 (by decide)).trans
    ((W8_keep_v3 m ρ c).trans (W7_keep_v3 m ρ c)))

theorem W4_keep_v6 : W4 m ρ c (Proc.devRef .tc main_v6) = W3 m ρ c (Proc.devRef .tc main_v6) :=
  W4_of_ne m ρ c main_v6 (by decide)
theorem W5_keep_v6 : W5 m ρ c (Proc.devRef .tc main_v6) = W4 m ρ c (Proc.devRef .tc main_v6) := by
  unfold W5; after_results_simp
theorem W7_keep_v6 : W7 m ρ c (Proc.devRef .tc main_v6) = W3 m ρ c (Proc.devRef .tc main_v6) :=
  (W7_of_ne m ρ c main_v6 (by decide)).trans ((W6_of_ne m ρ c main_v6 (by decide)).trans
    ((W5_keep_v6 m ρ c).trans (W4_keep_v6 m ρ c)))
theorem W8_keep_v6 : W8 m ρ c (Proc.devRef .tc main_v6) = W7 m ρ c (Proc.devRef .tc main_v6) := by
  unfold W8; after_results_simp
theorem W10_keep_v6 : W10 m ρ c (Proc.devRef .tc main_v6) = W3 m ρ c (Proc.devRef .tc main_v6) :=
  (W10_of_ne m ρ c main_v6 (by decide)).trans ((W9_of_ne m ρ c main_v6 (by decide)).trans
    ((W8_keep_v6 m ρ c).trans (W7_keep_v6 m ρ c)))

end Cert.KernelIdeal.Hand

end
-- ==== Proof.ChainA.lean ====
/-
  The edge lists and the edge weights, in the kernel's program, are the reference's.

  Before its first dense stage the kernel's program runs the reference's own first operations: the source list and
  the destination list (a row of the edge index followed by the self loops), the in-degree of every node (ones
  scatter-added at the destinations), its inverse square root where the degree is positive and zero elsewhere, and
  the weight of every edge, the product of that value at the edge's source and at its destination. Operation by
  operation the two programs apply the same function to the same operands, so the three arrays the later stretches
  read are the reference's stages of the edge index.
-/
import proofs.«110101_j3788161155718_1_alg».proof.Proof.Gen.KernelIdeal.Frame
import proofs.«110101_j3788161155718_1_alg».proof.Proof.RefReadP
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first stretch: the two lists, the degree's sign test and its inverse square root -/

theorem W1_v3 : W1 m ρ c (Proc.devRef .tc main_v3) = Cert.ReferenceIdeal.ReadP.val_main_v3 (F := Ideal) (m ((c : Thread nD τ).loc main_arg1)) := by
  unfold W1; after_results; rfl

theorem W1_v6 : W1 m ρ c (Proc.devRef .tc main_v6) = Cert.ReferenceIdeal.ReadP.val_main_v6 (F := Ideal) (m ((c : Thread nD τ).loc main_arg1)) := by
  unfold W1; after_results; rfl

theorem W1_v12 : W1 m ρ c (Proc.devRef .tc main_v12) = Cert.ReferenceIdeal.ReadP.val_main_v12 (F := Ideal) (m ((c : Thread nD τ).loc main_arg1)) := by
  unfold W1; after_results; rfl

theorem W1_v13 : W1 m ρ c (Proc.devRef .tc main_v13) = Cert.ReferenceIdeal.ReadP.val_main_v13 (F := Ideal) (m ((c : Thread nD τ).loc main_arg1)) := by
  unfold W1; after_results; rfl

theorem W1_cst_2 : W1 m ρ c (Proc.devRef .tc main_cst_2) = Cert.ReferenceIdeal.ReadP.val_main_cst_2 (F := Ideal) := by
  unfold W1; after_results; rfl

/-! ## After the selection: the inverse square root of the degree where it is positive, zero elsewhere -/

theorem W2_v14 : W2 m ρ c (Proc.devRef .tc main_v14) = Cert.ReferenceIdeal.ReadP.val_main_v14 (F := Ideal) (m ((c : Thread nD τ).loc main_arg1)) := by
  have h12 := W1_v12 m ρ c
  have h13 := W1_v13 m ρ c
  have hc := W1_cst_2 m ρ c
  unfold W2
  generalize hV : W1 m ρ c = V at h12 h13 hc ⊢
  after_results
  refine Eq.trans (b := select (V (Proc.devRef .tc main_v12)) (V (Proc.devRef .tc main_v13))
    (broadcastInDim S50000 ![] bcast_S_S50000 (id (V (Proc.devRef .tc main_cst_2))))) rfl ?_
  rewrite [h12, h13, hc]
  rfl

theorem W2_v3 : W2 m ρ c (Proc.devRef .tc main_v3) = Cert.ReferenceIdeal.ReadP.val_main_v3 (F := Ideal) (m ((c : Thread nD τ).loc main_arg1)) := by
  unfold W2
  generalize hV : W1 m ρ c = V
  after_results
  subst hV
  exact W1_v3 m ρ c

theorem W2_v6 : W2 m ρ c (Proc.devRef .tc main_v6) = Cert.ReferenceIdeal.ReadP.val_main_v6 (F := Ideal) (m ((c : Thread nD τ).loc main_arg1)) := by
  unfold W2
  generalize hV : W1 m ρ c = V
  after_results
  subst hV
  exact W1_v6 m ρ c

/-! ## After the third stretch: the lists still, and the edge weights -/

theorem W3_v3 : W3 m ρ c (Proc.devRef .tc main_v3) = Cert.ReferenceIdeal.ReadP.val_main_v3 (F := Ideal) (m ((c : Thread nD τ).loc main_arg1)) := by
  unfold W3
  generalize hV : W2 m ρ c = V
  after_results_simp
  subst hV
  exact W2_v3 m ρ c

theorem W3_v6 : W3 m ρ c (Proc.devRef .tc main_v6) = Cert.ReferenceIdeal.ReadP.val_main_v6 (F := Ideal) (m ((c : Thread nD τ).loc main_arg1)) := by
  unfold W3
  generalize hV : W2 m ρ c = V
  after_results_simp
  subst hV
  exact W2_v6 m ρ c

theorem W3_v29 : W3 m ρ c (Proc.devRef .tc main_v29) = Cert.ReferenceIdeal.ReadP.val_main_v29 (F := Ideal) (m ((c : Thread nD τ).loc main_arg1)) := by
  unfold W3
  generalize hV : W2 m ρ c = V
  after_results_simp
  subst hV
  rewrite [W2_v14, W2_v3, W2_v6]
  rfl

end Cert.KernelIdeal.Hand

end
-- ==== Proof.Spec.lean ====
/-
  The mathematics of the graph network's dense stages, as plain functions on extended reals.

  A feature transform is a matrix product: entry (r, c) is the sum over the contracted axis of the left operand's
  row r times the right operand's column c. A bias stage adds a row vector to every row, and may clamp below at the
  value of the zero word. The pooled head takes a product, adds a row, and normalises every row by a softmax taken
  with the row's maximum subtracted (the maximum itself taken from, and then against, the value of the negative
  infinity word). Sums and maxima are over finite index types, so no order of evaluation is fixed here.
-/
import Idealize.ShloMosaic.Lib.ValueIdx
import Idealize.ShloMosaic.PureOps.Ideal.Laws

noncomputable section

namespace Cert.Spec

open Idealize.ShloMosaic Idealize.ShloMosaic.ValueIdx

/-- Rows × contraction times contraction × columns. -/
def mm {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A one-row array added to every row. -/
def addRow {M N : Nat} (a : (⟨2, ![M, N]⟩ : Shape).Idx → EReal) (b : (⟨2, ![1, N]⟩ : Shape).Idx → EReal) :
    (⟨2, ![M, N]⟩ : Shape).Idx → EReal :=
  fun i => a i + b (ix2 (0 : Fin 1) (i 1))

/-- Clamped below at the value of the zero word. -/
def relu {s : Shape} (a : s.Idx → EReal) : s.Idx → EReal :=
  fun i => max (a i) (Ideal.ofBits .f32 0x00000000#32)

/-- A vector laid out as one row. -/
def asRow {N : Nat} (b : (⟨1, ![N]⟩ : Shape).Idx → EReal) : (⟨2, ![1, N]⟩ : Shape).Idx → EReal :=
  fun i => b (ix1 (i 1))

end Cert.Spec

end
-- ==== Proof.LibDotRead.lean ====
/-
  A matrix product accumulated into zero, read at one entry, at the ideal values.

  For the two dimension-number forms a two-operand product takes on rank-2 operands — rows × contraction times
  contraction × columns (`DotDims.plain`), and the same with the right operand stored transposed, columns × contraction
  (`DotDims.transposedRhs`) — entry `(r, c)` of the product is the plain sum, over the one contracted axis, of the
  left operand at `(r, k)` times the right operand at `(k, c)` (at `(c, k)` when stored transposed). The contraction
  index type of the dimension numbers is re-indexed to `Fin K` (`ValueIdx.contrEquiv1`), and the operands' indices at an
  output index and a contraction position are computed axis by axis: a free axis reads the output index, the
  contracted axis the contraction position. Extents are variables: nothing here depends on their values.
  No law of real arithmetic beyond `0 + x = x` is used, so the statements hold at the infinities too.
-/
import Idealize.ShloMosaic.Lib.ValueIdx
import Idealize.ShloMosaic.PureOps.Ideal.Laws

noncomputable section

namespace Idealize.ShloMosaic.DotRead

open Idealize.ShloMosaic Idealize.ShloMosaic.ValueIdx

/-! ## Rows × contraction times contraction × columns -/

/-- The left operand's row is the output's row. -/
theorem plain_lhs_row (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs_col (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem plain_rhs_col (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry `(r, c)` of `A · B` accumulated into zero is `∑ k, A (r, k) * B (k, c)`. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_row M K N _ _
      | ⟨1, _⟩ => exact (plain_lhs_col M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_row M K N _ _).trans hk
      | ⟨1, _⟩ => exact plain_rhs_col M K N _ _)
  rw [el, er]

/-! ## The right operand stored transposed: rows × contraction times columns × contraction -/

/-- The left operand's row is the output's row. -/
theorem transposedRhs_lhs_row (M K N : Nat) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem transposedRhs_lhs_col (M K N : Nat) (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the output's column. -/
theorem transposedRhs_rhs_row (M K N : Nat) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem transposedRhs_rhs_col (M K N : Nat) (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- Entry `(r, c)` of `A · Bᵀ` accumulated into zero is `∑ k, A (r, k) * B (c, k)`. -/
theorem matmul_transposedRhs_zero_apply {φ₁ φ₂ : FTy} (M K N : Nat) (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant (F := Ideal) ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact transposedRhs_lhs_row M K N _ _
      | ⟨1, _⟩ => exact (transposedRhs_lhs_col M K N _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact transposedRhs_rhs_row M K N _ _
      | ⟨1, _⟩ => exact (transposedRhs_rhs_col M K N _ _).trans hk)
  rw [el, er]

end Idealize.ShloMosaic.DotRead

end
-- ==== Proof.MatmulRegions.lean ====
/-
  The three feature-transform regions leave matrix products.

  Each region walks a grid of ten points. At point t the body loads rows 5000 t … 5000 t + 4999 of the left array
  (a [5000,128] block) and the whole [128,128] weight, narrows both to bf16 (the identity on exact values), multiplies
  them into a zero accumulator, and stores the [5000,128] product, which is written back to rows 5000 t … of the
  output array. Read at an entry (r, c), the product block is the sum over the contracted axis k of the loaded rows
  at (r, k) times the weight at (k, c). The left block's row r is row 5000 t + r of the left array and the weight
  block is the weight itself, so what point t writes back is block t of ONE function of the two arrays: the
  specification's product. The ten blocks cover the output array (row r lies in block r / 5000), so the array ends
  holding that product. The second and third region first cast the loaded rows to their own shape, which is the
  identity.
-/
import proofs.«110101_j3788161155718_1_alg».proof.Proof.Gen.KernelIdeal.Frame
import proofs.«110101_j3788161155718_1_alg».proof.Proof.Spec
import proofs.«110101_j3788161155718_1_alg».proof.Proof.LibDotRead
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-buffer access, however spelt. -/
theorem mm_hz : (![0, 0] : Fin 2 → Nat) = fun _ => 0 := funext fun a => by fin_cases a <;> rfl

/-! ## The first transform -/

/-- The product block at one entry: row r of the loaded rows against column q of the weight. -/
theorem pay0_apply (x0 : Vec Ideal S5000x128 .f32) (x1 : Vec Ideal S128x128 .f32) (r : Fin 5000) (q : Fin 128) :
    k0_pay1 x0 x1 (ix2 r q) = ∑ k : Fin 128, x0 (ix2 r k) * x1 (ix2 k q) := by
  unfold k0_pay1
  exact DotRead.matmul_plain_zero_apply 5000 128 128 none (truncf .bf16 x0 bitsLt_bf16_f32) (truncf .bf16 x1 bitsLt_bf16_f32) r q

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row window's block at point t is rows 5000 t … 5000 t + 4999 of its array. -/
theorem iblk0_0_apply (c : Dev nD) (t : Fin cfg0.N) (y : S5000x128.Idx) (k : S50000x128.Idx)
    (hk0 : (k 0).val = 5000 * t.val + (y 0).val) (hk1 : (k 1).val = (y 1).val) :
    (iblk0 V c 0 t : Vec Ideal S5000x128 .f32) y = (V c main_arg0 : S50000x128.Idx → Elt Ideal .f32) k := by
  obtain ⟨e0, e1, -, -, -, -⟩ := idx_facts0 t
  unfold iblk0
  rw [View.read_apply]
  show V c main_arg0 _ = V c main_arg0 _
  congr 1
  funext a
  apply Fin.ext
  match a with
  | ⟨0, _⟩ => show win0_0.index t 0 * 5000 + 1 * (y 0).val = (k 0).val; rw [e0, hk0]; omega
  | ⟨1, _⟩ => show win0_0.index t 1 * 128 + 1 * (y 1).val = (k 1).val; rw [e1, hk1]; omega

/-- The weight window's block at every point is the whole weight. -/
theorem iblk0_1_apply (c : Dev nD) (t : Fin cfg0.N) (y : S128x128.Idx) :
    (iblk0 V c 1 t : Vec Ideal S128x128 .f32) y = (V c main_arg3 : S128x128.Idx → Elt Ideal .f32) y := by
  obtain ⟨-, -, e2, e3, -, -⟩ := idx_facts0 t
  unfold iblk0
  rw [View.read_apply]
  show V c main_arg3 _ = V c main_arg3 _
  congr 1
  funext a
  apply Fin.ext
  match a with
  | ⟨0, _⟩ => show win0_1.index t 0 * 128 + 1 * (y 0).val = (y 0).val; rw [e2]; omega
  | ⟨1, _⟩ => show win0_1.index t 1 * 128 + 1 * (y 1).val = (y 1).val; rw [e3]; omega

/-- The body's product block, entry by entry, as the specification's product of the arrays the blocks are cut from:
    the rows loaded are rows 5000 b … of the left array, the weight loaded is the whole right array. -/
theorem pay0_eq_mm (x0 : Vec Ideal S5000x128 .f32) (x1 : Vec Ideal S128x128 .f32)
    (A : S50000x128.Idx → EReal) (W : S128x128.Idx → EReal) (b : Nat)
    (h0 : ∀ (y : S5000x128.Idx) (k : S50000x128.Idx), (k 0).val = 5000 * b + (y 0).val → (k 1).val = (y 1).val → x0 y = A k)
    (h1 : ∀ y : S128x128.Idx, x1 y = W y)
    (j : S5000x128.Idx) (i : S50000x128.Idx) (hi0 : (i 0).val = 5000 * b + (j 0).val) (hi1 : (i 1).val = (j 1).val) :
    k0_pay1 x0 x1 j = Cert.Spec.mm (M := 50000) (K := 128) (N := 128) A W i := by
  obtain ⟨r, q, rfl⟩ : ∃ (r : Fin 5000) (q : Fin 128), j = ix2 r q := ⟨j 0, j 1, eq_ix2 j⟩
  rw [pay0_apply]
  unfold Cert.Spec.mm
  refine Finset.sum_congr rfl fun k _ => ?_
  rw [h0 (ix2 r k) (ix2 (i 0) k) hi0 rfl, h1]
  have e : (ix2 k q : S128x128.Idx) = ix2 k (i 1) := by
    congr 1
    exact Fin.ext hi1.symm
  rw [e]
  rfl

/-- What point t writes back is block t of the product of the two arrays as the region finds them. -/
theorem flushed0_eq (c : Dev nD) (t : Fin cfg0.N) :
    (dat0 V c).flushed 2 t = ((cfg0.win 2).blk t).view.read (Elt Ideal)
      (Cert.Spec.mm (M := 50000) (K := 128) (N := 128) (V c main_arg0) (V c main_arg3)) := by
  show (cfg0.win 2).cut (grid0.coords t) ((dat0 V c).after 2 t) = _
  rw [after0_2]
  unfold out0_2
  rw [View.canon_unit_zero mm_hz]
  simp only [View.ld_unit_zero (S := S5000x128) mm_hz, View.ld_unit_zero (S := S128x128) mm_hz]
  obtain ⟨-, -, -, -, e4, e5⟩ := idx_facts0 t
  funext j
  rw [View.read_apply]
  refine pay0_eq_mm (iblk0 V c 0 t) (iblk0 V c 1 t) (V c main_arg0) (V c main_arg3) t.val
    (fun y k hk0 hk1 => iblk0_0_apply V c t y k hk0 hk1) (fun y => iblk0_1_apply V c t y) _ _ ?_ ?_
  · show win0_2.index t 0 * 5000 + 1 * (j 0).val = 5000 * t.val + (j 0).val
    rw [e4]; omega
  · show win0_2.index t 1 * 128 + 1 * (j 1).val = (j 1).val
    rw [e5]; omega

/-- An index of the product array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- The ten row blocks cover the array: row r lies in the block of point r / 5000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 :=
    ⟨⟨(i 0).val / 5000, by show _ < grid0.N; rw [hN]; omega⟩, rfl⟩
  obtain ⟨-, -, -, -, e4, e5⟩ := idx_facts0 t
  refine ⟨t, flush0_2 t, ?_⟩
  rw [mem_blk0]
  intro a
  match a with
  | ⟨0, _⟩ =>
    show win0_2.index t 0 * 5000 ≤ (i 0).val ∧ (i 0).val < win0_2.index t 0 * 5000 + 5000
    rw [e4, ht]; omega
  | ⟨1, _⟩ =>
    show win0_2.index t 1 * 128 ≤ (i 1).val ∧ (i 1).val < win0_2.index t 1 * 128 + 128
    rw [e5]; omega

/-- After the first feature-transform region its output array is the product of the two arrays it was entered with. -/
theorem mm_region0 (c : Dev nD) : (dat0 (F := Ideal) V c).arrAt 2 cfg0.N
    = Cert.Spec.mm (M := 50000) (K := 128) (N := 128) (V c main_arg0) (V c main_arg3) :=
  (dat0 V c).arrAt_eq_of_cover 2 _ (fun t _ => flushed0_eq V c t) cover0

/-! ## The second transform -/

/-- The product block at one entry: row r of the loaded rows against column q of the weight (the cast of the loaded
    rows to their own shape changes nothing). -/
theorem pay2_apply (x0 : Vec Ideal S5000x128 .f32) (x1 : Vec Ideal S128x128 .f32) (r : Fin 5000) (q : Fin 128) :
    k2_pay1 x0 x1 (ix2 r q) = ∑ k : Fin 128, x0 (ix2 r k) * x1 (ix2 k q) := by
  unfold k2_pay1
  simp only [shapeCast_self]
  exact DotRead.matmul_plain_zero_apply 5000 128 128 none (truncf .bf16 x0 bitsLt_bf16_f32) (truncf .bf16 x1 bitsLt_bf16_f32) r q

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row window's block at point t is rows 5000 t … 5000 t + 4999 of its array. -/
theorem iblk2_0_apply (c : Dev nD) (t : Fin cfg2.N) (y : S5000x128.Idx) (k : S50000x128.Idx)
    (hk0 : (k 0).val = 5000 * t.val + (y 0).val) (hk1 : (k 1).val = (y 1).val) :
    (iblk2 V c 0 t : Vec Ideal S5000x128 .f32) y = (V c main_v45 : S50000x128.Idx → Elt Ideal .f32) k := by
  obtain ⟨e0, e1, -, -, -, -⟩ := idx_facts2 t
  unfold iblk2
  rw [View.read_apply]
  show V c main_v45 _ = V c main_v45 _
  congr 1
  funext a
  apply Fin.ext
  match a with
  | ⟨0, _⟩ => show win2_0.index t 0 * 5000 + 1 * (y 0).val = (k 0).val; rw [e0, hk0]; omega
  | ⟨1, _⟩ => show win2_0.index t 1 * 128 + 1 * (y 1).val = (k 1).val; rw [e1, hk1]; omega

/-- The weight window's block at every point is the whole weight. -/
theorem iblk2_1_apply (c : Dev nD) (t : Fin cfg2.N) (y : S128x128.Idx) :
    (iblk2 V c 1 t : Vec Ideal S128x128 .f32) y = (V c main_arg5 : S128x128.Idx → Elt Ideal .f32) y := by
  obtain ⟨-, -, e2, e3, -, -⟩ := idx_facts2 t
  unfold iblk2
  rw [View.read_apply]
  show V c main_arg5 _ = V c main_arg5 _
  congr 1
  funext a
  apply Fin.ext
  match a with
  | ⟨0, _⟩ => show win2_1.index t 0 * 128 + 1 * (y 0).val = (y 0).val; rw [e2]; omega
  | ⟨1, _⟩ => show win2_1.index t 1 * 128 + 1 * (y 1).val = (y 1).val; rw [e3]; omega

/-- The body's product block, entry by entry, as the specification's product of the arrays the blocks are cut from:
    the rows loaded are rows 5000 b … of the left array, the weight loaded is the whole right array. -/
theorem pay2_eq_mm (x0 : Vec Ideal S5000x128 .f32) (x1 : Vec Ideal S128x128 .f32)
    (A : S50000x128.Idx → EReal) (W : S128x128.Idx → EReal) (b : Nat)
    (h0 : ∀ (y : S5000x128.Idx) (k : S50000x128.Idx), (k 0).val = 5000 * b + (y 0).val → (k 1).val = (y 1).val → x0 y = A k)
    (h1 : ∀ y : S128x128.Idx, x1 y = W y)
    (j : S5000x128.Idx) (i : S50000x128.Idx) (hi0 : (i 0).val = 5000 * b + (j 0).val) (hi1 : (i 1).val = (j 1).val) :
    k2_pay1 x0 x1 j = Cert.Spec.mm (M := 50000) (K := 128) (N := 128) A W i := by
  obtain ⟨r, q, rfl⟩ : ∃ (r : Fin 5000) (q : Fin 128), j = ix2 r q := ⟨j 0, j 1, eq_ix2 j⟩
  rw [pay2_apply]
  unfold Cert.Spec.mm
  refine Finset.sum_congr rfl fun k _ => ?_
  rw [h0 (ix2 r k) (ix2 (i 0) k) hi0 rfl, h1]
  have e : (ix2 k q : S128x128.Idx) = ix2 k (i 1) := by
    congr 1
    exact Fin.ext hi1.symm
  rw [e]
  rfl

/-- What point t writes back is block t of the product of the two arrays as the region finds them. -/
theorem flushed2_eq (c : Dev nD) (t : Fin cfg2.N) :
    (dat2 V c).flushed 2 t = ((cfg2.win 2).blk t).view.read (Elt Ideal)
      (Cert.Spec.mm (M := 50000) (K := 128) (N := 128) (V c main_v45) (V c main_arg5)) := by
  show (cfg2.win 2).cut (grid2.coords t) ((dat2 V c).after 2 t) = _
  rw [after2_2]
  unfold out2_2
  rw [View.canon_unit_zero mm_hz]
  simp only [View.ld_unit_zero (S := S5000x128) mm_hz, View.ld_unit_zero (S := S128x128) mm_hz]
  obtain ⟨-, -, -, -, e4, e5⟩ := idx_facts2 t
  funext j
  rw [View.read_apply]
  refine pay2_eq_mm (iblk2 V c 0 t) (iblk2 V c 1 t) (V c main_v45) (V c main_arg5) t.val
    (fun y k hk0 hk1 => iblk2_0_apply V c t y k hk0 hk1) (fun y => iblk2_1_apply V c t y) _ _ ?_ ?_
  · show win2_2.index t 0 * 5000 + 1 * (j 0).val = 5000 * t.val + (j 0).val
    rw [e4]; omega
  · show win2_2.index t 1 * 128 + 1 * (j 1).val = (j 1).val
    rw [e5]; omega

/-- An index of the product array is in point t's block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v46).slice (win2_2.rect t)).set ↔ _
  rw [View.set_slice_whole, Rect.mem_set_unit]
  exact Iff.rfl

/-- The ten row blocks cover the array: row r lies in the block of point r / 5000. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : grid2.N = 10 := N_2
  obtain ⟨t, ht⟩ : ∃ t : Fin cfg2.N, t.val = (i 0).val / 5000 :=
    ⟨⟨(i 0).val / 5000, by show _ < grid2.N; rw [hN]; omega⟩, rfl⟩
  obtain ⟨-, -, -, -, e4, e5⟩ := idx_facts2 t
  refine ⟨t, flush2_2 t, ?_⟩
  rw [mem_blk2]
  intro a
  match a with
  | ⟨0, _⟩ =>
    show win2_2.index t 0 * 5000 ≤ (i 0).val ∧ (i 0).val < win2_2.index t 0 * 5000 + 5000
    rw [e4, ht]; omega
  | ⟨1, _⟩ =>
    show win2_2.index t 1 * 128 ≤ (i 1).val ∧ (i 1).val < win2_2.index t 1 * 128 + 128
    rw [e5]; omega

/-- After the second feature-transform region its output array is the product of the two arrays it was entered with. -/
theorem mm_region2 (c : Dev nD) : (dat2 (F := Ideal) V c).arrAt 2 cfg2.N
    = Cert.Spec.mm (M := 50000) (K := 128) (N := 128) (V c main_v45) (V c main_arg5) :=
  (dat2 V c).arrAt_eq_of_cover 2 _ (fun t _ => flushed2_eq V c t) cover2

/-! ## The third transform -/

/-- The product block at one entry: row r of the loaded rows against column q of the weight (the cast of the loaded
    rows to their own shape changes nothing). -/
theorem pay4_apply (x0 : Vec Ideal S5000x128 .f32) (x1 : Vec Ideal S128x128 .f32) (r : Fin 5000) (q : Fin 128) :
    k4_pay1 x0 x1 (ix2 r q) = ∑ k : Fin 128, x0 (ix2 r k) * x1 (ix2 k q) := by
  unfold k4_pay1
  simp only [shapeCast_self]
  exact DotRead.matmul_plain_zero_apply 5000 128 128 none (truncf .bf16 x0 bitsLt_bf16_f32) (truncf .bf16 x1 bitsLt_bf16_f32) r q

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The row window's block at point t is rows 5000 t … 5000 t + 4999 of its array. -/
theorem iblk4_0_apply (c : Dev nD) (t : Fin cfg4.N) (y : S5000x128.Idx) (k : S50000x128.Idx)
    (hk0 : (k 0).val = 5000 * t.val + (y 0).val) (hk1 : (k 1).val = (y 1).val) :
    (iblk4 V c 0 t : Vec Ideal S5000x128 .f32) y = (V c main_v61 : S50000x128.Idx → Elt Ideal .f32) k := by
  obtain ⟨e0, e1, -, -, -, -⟩ := idx_facts4 t
  unfold iblk4
  rw [View.read_apply]
  show V c main_v61 _ = V c main_v61 _
  congr 1
  funext a
  apply Fin.ext
  match a with
  | ⟨0, _⟩ => show win4_0.index t 0 * 5000 + 1 * (y 0).val = (k 0).val; rw [e0, hk0]; omega
  | ⟨1, _⟩ => show win4_0.index t 1 * 128 + 1 * (y 1).val = (k 1).val; rw [e1, hk1]; omega

/-- The weight window's block at every point is the whole weight. -/
theorem iblk4_1_apply (c : Dev nD) (t : Fin cfg4.N) (y : S128x128.Idx) :
    (iblk4 V c 1 t : Vec Ideal S128x128 .f32) y = (V c main_arg7 : S128x128.Idx → Elt Ideal .f32) y := by
  obtain ⟨-, -, e2, e3, -, -⟩ := idx_facts4 t
  unfold iblk4
  rw [View.read_apply]
  show V c main_arg7 _ = V c main_arg7 _
  congr 1
  funext a
  apply Fin.ext
  match a with
  | ⟨0, _⟩ => show win4_1.index t 0 * 128 + 1 * (y 0).val = (y 0).val; rw [e2]; omega
  | ⟨1, _⟩ => show win4_1.index t 1 * 128 + 1 * (y 1).val = (y 1).val; rw [e3]; omega

/-- The body's product block, entry by entry, as the specification's product of the arrays the blocks are cut from:
    the rows loaded are rows 5000 b … of the left array, the weight loaded is the whole right array. -/
theorem pay4_eq_mm (x0 : Vec Ideal S5000x128 .f32) (x1 : Vec Ideal S128x128 .f32)
    (A : S50000x128.Idx → EReal) (W : S128x128.Idx → EReal) (b : Nat)
    (h0 : ∀ (y : S5000x128.Idx) (k : S50000x128.Idx), (k 0).val = 5000 * b + (y 0).val → (k 1).val = (y 1).val → x0 y = A k)
    (h1 : ∀ y : S128x128.Idx, x1 y = W y)
    (j : S5000x128.Idx) (i : S50000x128.Idx) (hi0 : (i 0).val = 5000 * b + (j 0).val) (hi1 : (i 1).val = (j 1).val) :
    k4_pay1 x0 x1 j = Cert.Spec.mm (M := 50000) (K := 128) (N := 128) A W i := by
  obtain ⟨r, q, rfl⟩ : ∃ (r : Fin 5000) (q : Fin 128), j = ix2 r q := ⟨j 0, j 1, eq_ix2 j⟩
  rw [pay4_apply]
  unfold Cert.Spec.mm
  refine Finset.sum_congr rfl fun k _ => ?_
  rw [h0 (ix2 r k) (ix2 (i 0) k) hi0 rfl, h1]
  have e : (ix2 k q : S128x128.Idx) = ix2 k (i 1) := by
    congr 1
    exact Fin.ext hi1.symm
  rw [e]
  rfl

/-- What point t writes back is block t of the product of the two arrays as the region finds them. -/
theorem flushed4_eq (c : Dev nD) (t : Fin cfg4.N) :
    (dat4 V c).flushed 2 t = ((cfg4.win 2).blk t).view.read (Elt Ideal)
      (Cert.Spec.mm (M := 50000) (K := 128) (N := 128) (V c main_v61) (V c main_arg7)) := by
  show (cfg4.win 2).cut (grid4.coords t) ((dat4 V c).after 2 t) = _
  rw [after4_2]
  unfold out4_2
  rw [View.canon_unit_zero mm_hz]
  simp only [View.ld_unit_zero (S := S5000x128) mm_hz, View.ld_unit_zero (S := S128x128) mm_hz]
  obtain ⟨-, -, -, -, e4, e5⟩ := idx_facts4 t
  funext j
  rw [View.read_apply]
  refine pay4_eq_mm (iblk4 V c 0 t) (iblk4 V c 1 t) (V c main_v61) (V c main_arg7) t.val
    (fun y k hk0 hk1 => iblk4_0_apply V c t y k hk0 hk1) (fun y => iblk4_1_apply V c t y) _ _ ?_ ?_
  · show win4_2.index t 0 * 5000 + 1 * (j 0).val = 5000 * t.val + (j 0).val
    rw [e4]; omega
  · show win4_2.index t 1 * 128 + 1 * (j 1).val = (j 1).val
    rw [e5]; omega

/-- An index of the product array is in point t's block iff each coordinate is in the block's range on its axis. -/
theorem mem_blk4 (t : Fin cfg4.N) (i : S50000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v62).slice (win4_2.rect t)).set ↔ _
  rw [View.set_slice_whole, Rect.mem_set_unit]
  exact Iff.rfl

/-- The ten row blocks cover the array: row r lies in the block of point r / 5000. -/
theorem cover4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : grid4.N = 10 := N_4
  obtain ⟨t, ht⟩ : ∃ t : Fin cfg4.N, t.val = (i 0).val / 5000 :=
    ⟨⟨(i 0).val / 5000, by show _ < grid4.N; rw [hN]; omega⟩, rfl⟩
  obtain ⟨-, -, -, -, e4, e5⟩ := idx_facts4 t
  refine ⟨t, flush4_2 t, ?_⟩
  rw [mem_blk4]
  intro a
  match a with
  | ⟨0, _⟩ =>
    show win4_2.index t 0 * 5000 ≤ (i 0).val ∧ (i 0).val < win4_2.index t 0 * 5000 + 5000
    rw [e4, ht]; omega
  | ⟨1, _⟩ =>
    show win4_2.index t 1 * 128 ≤ (i 1).val ∧ (i 1).val < win4_2.index t 1 * 128 + 128
    rw [e5]; omega

/-- After the third feature-transform region its output array is the product of the two arrays it was entered with. -/
theorem mm_region4 (c : Dev nD) : (dat4 (F := Ideal) V c).arrAt 2 cfg4.N
    = Cert.Spec.mm (M := 50000) (K := 128) (N := 128) (V c main_v61) (V c main_arg7) :=
  (dat4 V c).arrAt_eq_of_cover 2 _ (fun t _ => flushed4_eq V c t) cover4

end Cert.KernelIdeal.Hand

end
-- ==== Proof.MatmulRef.lean ====
/-
  The reference's three feature transforms are matrix products.

  Each is a host dot_general contracting the left operand's columns against the right operand's rows. Read at an
  entry (r, c) it is the sum over the contracted axis k of the left operand at (r, k) times the right at (k, c):
  the specification's product. The left operand of the second and third transform is an earlier stage of the
  network; it is carried as one opaque array and never opened.
-/
import proofs.«110101_j3788161155718_1_alg».proof.Proof.RefReadP
import proofs.«110101_j3788161155718_1_alg».proof.Proof.Spec

noncomputable section

namespace Cert.ReferenceIdeal.Hand

open Cert.ReferenceIdeal Cert.ReferenceIdeal.ReadP Idealize.ShloMosaic
open Idealize.ShloMosaic.ValueIdx

/-- The left operand is read at (row of the entry, contraction position). -/
theorem lidx30_eq (i : S50000x128.Idx) (k : Fin 128) : lidx_main_v30 i k = ix2 (i 0) k :=
  funext fun a => Fin.ext (by match a with | ⟨0, _⟩ => rfl | ⟨1, _⟩ => rfl)

/-- The right operand is read at (contraction position, column of the entry). -/
theorem ridx30_eq (i : S50000x128.Idx) (k : Fin 128) : ridx_main_v30 i k = ix2 k (i 1) :=
  funext fun a => Fin.ext (by match a with | ⟨0, _⟩ => rfl | ⟨1, _⟩ => rfl)

theorem lidx48_eq (i : S50000x128.Idx) (k : Fin 128) : lidx_main_v48 i k = ix2 (i 0) k :=
  funext fun a => Fin.ext (by match a with | ⟨0, _⟩ => rfl | ⟨1, _⟩ => rfl)

theorem ridx48_eq (i : S50000x128.Idx) (k : Fin 128) : ridx_main_v48 i k = ix2 k (i 1) :=
  funext fun a => Fin.ext (by match a with | ⟨0, _⟩ => rfl | ⟨1, _⟩ => rfl)

theorem lidx66_eq (i : S50000x128.Idx) (k : Fin 128) : lidx_main_v66 i k = ix2 (i 0) k :=
  funext fun a => Fin.ext (by match a with | ⟨0, _⟩ => rfl | ⟨1, _⟩ => rfl)

theorem ridx66_eq (i : S50000x128.Idx) (k : Fin 128) : ridx_main_v66 i k = ix2 k (i 1) :=
  funext fun a => Fin.ext (by match a with | ⟨0, _⟩ => rfl | ⟨1, _⟩ => rfl)

/-- The first transform: the node features times the first weight. -/
theorem mm_ref1 (x0 : (⟨S50000x128, .f32⟩ : BufTy).Contents (Elt Ideal)) (x3 : (⟨S128x128, .f32⟩ : BufTy).Contents (Elt Ideal)) :
    val_main_v30 (F := Ideal) x0 x3 = Cert.Spec.mm (M := 50000) (K := 128) (N := 128) x0 x3 := by
  funext i
  rw [val_main_v30_apply]
  unfold Cert.Spec.mm
  refine Finset.sum_congr rfl fun k _ => ?_
  rw [lidx30_eq, ridx30_eq]
  rfl

/-- The second transform: the first layer's output times the second weight. -/
theorem mm_ref2 (x0 : (⟨S50000x128, .f32⟩ : BufTy).Contents (Elt Ideal)) (x1 : (⟨S2x800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) :
    val_main_v48 (F := Ideal) x0 x1 x3 x4 x5
      = Cert.Spec.mm (M := 50000) (K := 128) (N := 128) (val_main_v47 (F := Ideal) x0 x1 x3 x4) x5 := by
  funext i
  rw [val_main_v48_apply]
  generalize val_main_v47 (F := Ideal) x0 x1 x3 x4 = y
  unfold Cert.Spec.mm
  refine Finset.sum_congr rfl fun k _ => ?_
  rw [lidx48_eq, ridx48_eq]
  rfl

/-- The third transform: the second layer's output times the third weight. -/
theorem mm_ref3 (x0 : (⟨S50000x128, .f32⟩ : BufTy).Contents (Elt Ideal)) (x1 : (⟨S2x800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v66 (F := Ideal) x0 x1 x3 x4 x5 x6 x7
      = Cert.Spec.mm (M := 50000) (K := 128) (N := 128) (val_main_v65 (F := Ideal) x0 x1 x3 x4 x5 x6) x7 := by
  funext i
  rw [val_main_v66_apply]
  generalize val_main_v65 (F := Ideal) x0 x1 x3 x4 x5 x6 = y
  unfold Cert.Spec.mm
  refine Finset.sum_congr rfl fun k _ => ?_
  rw [lidx66_eq, ridx66_eq]
  rfl

end Cert.ReferenceIdeal.Hand

end
-- ==== Proof.BiasRegions.lean ====
/-
  The three bias stages of the network as whole arrays.

  Each stage sweeps the rows of a 50000 × 128 array in ten blocks of 5000 rows. At every block it adds the one-row
  bias array to each row of the block and, in the first two stages, clamps the sum below at the value of the zero
  word. The value stored at row p, lane q of a block depends only on the block's own entry there and on lane q of
  the bias row, so block t of the output is block t of one function of the two whole arrays; the ten blocks tile the
  output, so the output array is that function.  The host's reshape of a vector to a single row reads the vector at
  the row's lane.
-/
import proofs.«110101_j3788161155718_1_alg».proof.Proof.Gen.KernelIdeal.Frame
import proofs.«110101_j3788161155718_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-block access, as a constant function. -/
theorem zero_offsets : (![0, 0] : Fin 2 → Nat) = fun _ => 0 := funext fun a => by fin_cases a <;> rfl

/-- A row broadcast to 5000 rows reads the row at the lane. -/
theorem rowBroadcast_apply (b : Vec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q)
    (fun a => by match a with | ⟨0, _⟩ => rfl | ⟨1, _⟩ => rfl)

variable (V : (c : Dev nD) → (b : Ref sig .tc) → Buf (Elt Ideal) ((c : Thread nD τ).loc b))

/-! ## The first bias stage -/

/-- The stored value at row p, lane q: the block's entry plus the bias row's lane, clamped below. -/
theorem pay1_apply (b : Vec Ideal S1x128 .f32) (x : Vec Ideal S5000x128 .f32) (p : Fin 5000) (q : Fin 128) :
    k1_pay1 b x (ix2 p q) = max (x (ix2 p q) + b (ix2 (0 : Fin 1) q)) (Ideal.ofBits .f32 0x00000000#32) := by
  unfold k1_pay1
  simp only [shapeCast_self]
  rw [maximumf_apply, addf_apply, broadcast_apply, rowBroadcast_apply]
  rfl

/-- The index maps over the grid: the row blocks of the input and of the output move with the point, the bias row
    stays, and no window moves along the lanes. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input block at point t is rows 5000 t … 5000 t + 4999 of the input array. -/
theorem iblk1_0_apply (c : Dev nD) (t : Fin cfg1.N) (p : Fin 5000) (q : Fin 128) (k : S50000x128.Idx)
    (hk0 : (k 0).val = 5000 * t.val + p.val) (hk1 : (k 1).val = q.val) :
    (iblk1 V c 0 t : Vec Ideal S5000x128 .f32) (ix2 p q) = (V c main_v43 : S50000x128.Idx → EReal) k := by
  obtain ⟨e0, e1, -⟩ := idx_facts1 t
  unfold iblk1
  rw [View.read_apply]
  show V c main_v43 _ = V c main_v43 _
  congr 1
  funext a; apply Fin.ext
  match a with
  | ⟨0, _⟩ => show win1_0.index t 0 * 5000 + 1 * p.val = (k 0).val; rw [e0, hk0]; omega
  | ⟨1, _⟩ => show win1_0.index t 1 * 128 + 1 * q.val = (k 1).val; rw [e1, hk1]; omega

/-- The bias window's block at every point is the whole one-row array. -/
theorem iblk1_1_apply (c : Dev nD) (t : Fin cfg1.N) (q : Fin 128) :
    (iblk1 V c 1 t : Vec Ideal S1x128 .f32) (ix2 (0 : Fin 1) q) = (V c main_v44 : S1x128.Idx → EReal) (ix2 (0 : Fin 1) q) := by
  obtain ⟨-, -, e2, e3, -⟩ := idx_facts1 t
  unfold iblk1
  rw [View.read_apply]
  show V c main_v44 _ = V c main_v44 _
  congr 1
  funext a; apply Fin.ext
  match a with
  | ⟨0, _⟩ => show win1_1.index t 0 * 1 + 1 * 0 = 0; rw [e2]
  | ⟨1, _⟩ => show win1_1.index t 1 * 128 + 1 * q.val = q.val; rw [e3]; omega

/-- Row p, lane q of the output block at point t sits at row 5000 t + p, lane q of the output array. -/
theorem oblk1_emb (t : Fin cfg1.N) (p : Fin 5000) (q : Fin 128) (k : S50000x128.Idx)
    (hk0 : (k 0).val = 5000 * t.val + p.val) (hk1 : (k 1).val = q.val) :
    ((cfg1.win 2).blk t).view.emb (ix2 p q) = k := by
  obtain ⟨-, -, -, -, e4, e5⟩ := idx_facts1 t
  funext a; apply Fin.ext
  match a with
  | ⟨0, _⟩ => show win1_2.index t 0 * 5000 + 1 * p.val = (k 0).val; rw [e4, hk0]; omega
  | ⟨1, _⟩ => show win1_2.index t 1 * 128 + 1 * q.val = (k 1).val; rw [e5, hk1]; omega

/-- What point t writes back is block t of the stage's function of the two whole arrays. -/
theorem flushed1_eq (c : Dev nD) (t : Fin cfg1.N) :
    (dat1 (F := Ideal) V c).flushed 2 t
      = ((cfg1.win 2).blk t).view.read (Elt Ideal) (Cert.Spec.relu (Cert.Spec.addRow (M := 50000) (N := 128) (V c main_v43) (V c main_v44))) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  have hN : cfg1.N = 10 := N_1
  have ht : t.val < 10 := hN ▸ t.isLt
  have hp : p.val < 5000 := p.isLt
  let k : S50000x128.Idx := ix2 (⟨5000 * t.val + p.val, by omega⟩ : Fin 50000) q
  show k1_pay1 (iblk1 V c 1 t) (iblk1 V c 0 t) (ix2 p q)
      = (Cert.Spec.relu (Cert.Spec.addRow (M := 50000) (N := 128) (V c main_v43) (V c main_v44))) (((cfg1.win 2).blk t).view.emb (ix2 p q))
  rw [pay1_apply, iblk1_0_apply V c t p q k rfl rfl, iblk1_1_apply V c t q, oblk1_emb t p q k rfl rfl]
  rfl

/-- An index of the output array is in point t's block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Row r of the output array is in the block of point r / 5000: the ten blocks tile the array. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, e4, e5⟩ := idx_facts1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; rw [e4, ht]; omega
  | ⟨1, _⟩ => show win1_2.index t (1 : Fin 2) * 128 ≤ (i 1).val ∧ (i 1).val < win1_2.index t (1 : Fin 2) * 128 + 128; rw [e5]; omega

/-- The first bias stage's output array: the input plus the bias row on every row, clamped below. -/
theorem bias_region1 (c : Dev nD) : (dat1 (F := Ideal) V c).arrAt 2 cfg1.N = Cert.Spec.relu (Cert.Spec.addRow (M := 50000) (N := 128) (V c main_v43) (V c main_v44)) :=
  (dat1 (F := Ideal) V c).arrAt_eq_of_cover 2 _ (fun t _ => flushed1_eq V c t) cover1

/-! ## The second bias stage -/

/-- The stored value at row p, lane q: the block's entry plus the bias row's lane, clamped below. -/
theorem pay3_apply (b : Vec Ideal S1x128 .f32) (x : Vec Ideal S5000x128 .f32) (p : Fin 5000) (q : Fin 128) :
    k3_pay1 b x (ix2 p q) = max (x (ix2 p q) + b (ix2 (0 : Fin 1) q)) (Ideal.ofBits .f32 0x00000000#32) := by
  unfold k3_pay1
  simp only [shapeCast_self]
  rw [maximumf_apply, addf_apply, broadcast_apply, rowBroadcast_apply]
  rfl

/-- The index maps over the grid: the row blocks of the input and of the output move with the point, the bias row
    stays, and no window moves along the lanes. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The input block at point t is rows 5000 t … 5000 t + 4999 of the input array. -/
theorem iblk3_0_apply (c : Dev nD) (t : Fin cfg3.N) (p : Fin 5000) (q : Fin 128) (k : S50000x128.Idx)
    (hk0 : (k 0).val = 5000 * t.val + p.val) (hk1 : (k 1).val = q.val) :
    (iblk3 V c 0 t : Vec Ideal S5000x128 .f32) (ix2 p q) = (V c main_v59 : S50000x128.Idx → EReal) k := by
  obtain ⟨e0, e1, -⟩ := idx_facts3 t
  unfold iblk3
  rw [View.read_apply]
  show V c main_v59 _ = V c main_v59 _
  congr 1
  funext a; apply Fin.ext
  match a with
  | ⟨0, _⟩ => show win3_0.index t 0 * 5000 + 1 * p.val = (k 0).val; rw [e0, hk0]; omega
  | ⟨1, _⟩ => show win3_0.index t 1 * 128 + 1 * q.val = (k 1).val; rw [e1, hk1]; omega

/-- The bias window's block at every point is the whole one-row array. -/
theorem iblk3_1_apply (c : Dev nD) (t : Fin cfg3.N) (q : Fin 128) :
    (iblk3 V c 1 t : Vec Ideal S1x128 .f32) (ix2 (0 : Fin 1) q) = (V c main_v60 : S1x128.Idx → EReal) (ix2 (0 : Fin 1) q) := by
  obtain ⟨-, -, e2, e3, -⟩ := idx_facts3 t
  unfold iblk3
  rw [View.read_apply]
  show V c main_v60 _ = V c main_v60 _
  congr 1
  funext a; apply Fin.ext
  match a with
  | ⟨0, _⟩ => show win3_1.index t 0 * 1 + 1 * 0 = 0; rw [e2]
  | ⟨1, _⟩ => show win3_1.index t 1 * 128 + 1 * q.val = q.val; rw [e3]; omega

/-- Row p, lane q of the output block at point t sits at row 5000 t + p, lane q of the output array. -/
theorem oblk3_emb (t : Fin cfg3.N) (p : Fin 5000) (q : Fin 128) (k : S50000x128.Idx)
    (hk0 : (k 0).val = 5000 * t.val + p.val) (hk1 : (k 1).val = q.val) :
    ((cfg3.win 2).blk t).view.emb (ix2 p q) = k := by
  obtain ⟨-, -, -, -, e4, e5⟩ := idx_facts3 t
  funext a; apply Fin.ext
  match a with
  | ⟨0, _⟩ => show win3_2.index t 0 * 5000 + 1 * p.val = (k 0).val; rw [e4, hk0]; omega
  | ⟨1, _⟩ => show win3_2.index t 1 * 128 + 1 * q.val = (k 1).val; rw [e5, hk1]; omega

/-- What point t writes back is block t of the stage's function of the two whole arrays. -/
theorem flushed3_eq (c : Dev nD) (t : Fin cfg3.N) :
    (dat3 (F := Ideal) V c).flushed 2 t
      = ((cfg3.win 2).blk t).view.read (Elt Ideal) (Cert.Spec.relu (Cert.Spec.addRow (M := 50000) (N := 128) (V c main_v59) (V c main_v60))) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  have hN : cfg3.N = 10 := N_3
  have ht : t.val < 10 := hN ▸ t.isLt
  have hp : p.val < 5000 := p.isLt
  let k : S50000x128.Idx := ix2 (⟨5000 * t.val + p.val, by omega⟩ : Fin 50000) q
  show k3_pay1 (iblk3 V c 1 t) (iblk3 V c 0 t) (ix2 p q)
      = (Cert.Spec.relu (Cert.Spec.addRow (M := 50000) (N := 128) (V c main_v59) (V c main_v60))) (((cfg3.win 2).blk t).view.emb (ix2 p q))
  rw [pay3_apply, iblk3_0_apply V c t p q k rfl rfl, iblk3_1_apply V c t q, oblk3_emb t p q k rfl rfl]
  rfl

/-- An index of the output array is in point t's block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- Row r of the output array is in the block of point r / 5000: the ten blocks tile the array. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, e4, e5⟩ := idx_facts3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; rw [e4, ht]; omega
  | ⟨1, _⟩ => show win3_2.index t (1 : Fin 2) * 128 ≤ (i 1).val ∧ (i 1).val < win3_2.index t (1 : Fin 2) * 128 + 128; rw [e5]; omega

/-- The second bias stage's output array: the input plus the bias row on every row, clamped below. -/
theorem bias_region3 (c : Dev nD) : (dat3 (F := Ideal) V c).arrAt 2 cfg3.N = Cert.Spec.relu (Cert.Spec.addRow (M := 50000) (N := 128) (V c main_v59) (V c main_v60)) :=
  (dat3 (F := Ideal) V c).arrAt_eq_of_cover 2 _ (fun t _ => flushed3_eq V c t) cover3

/-! ## The third bias stage -/

/-- The stored value at row p, lane q: the block's entry plus the bias row's lane. -/
theorem pay5_apply (b : Vec Ideal S1x128 .f32) (x : Vec Ideal S5000x128 .f32) (p : Fin 5000) (q : Fin 128) :
    k5_pay1 b x (ix2 p q) = x (ix2 p q) + b (ix2 (0 : Fin 1) q) := by
  unfold k5_pay1
  simp only [shapeCast_self]
  rw [addf_apply, rowBroadcast_apply]

/-- The index maps over the grid: the row blocks of the input and of the output move with the point, the bias row
    stays, and no window moves along the lanes. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The input block at point t is rows 5000 t … 5000 t + 4999 of the input array. -/
theorem iblk5_0_apply (c : Dev nD) (t : Fin cfg5.N) (p : Fin 5000) (q : Fin 128) (k : S50000x128.Idx)
    (hk0 : (k 0).val = 5000 * t.val + p.val) (hk1 : (k 1).val = q.val) :
    (iblk5 V c 0 t : Vec Ideal S5000x128 .f32) (ix2 p q) = (V c main_v75 : S50000x128.Idx → EReal) k := by
  obtain ⟨e0, e1, -⟩ := idx_facts5 t
  unfold iblk5
  rw [View.read_apply]
  show V c main_v75 _ = V c main_v75 _
  congr 1
  funext a; apply Fin.ext
  match a with
  | ⟨0, _⟩ => show win5_0.index t 0 * 5000 + 1 * p.val = (k 0).val; rw [e0, hk0]; omega
  | ⟨1, _⟩ => show win5_0.index t 1 * 128 + 1 * q.val = (k 1).val; rw [e1, hk1]; omega

/-- The bias window's block at every point is the whole one-row array. -/
theorem iblk5_1_apply (c : Dev nD) (t : Fin cfg5.N) (q : Fin 128) :
    (iblk5 V c 1 t : Vec Ideal S1x128 .f32) (ix2 (0 : Fin 1) q) = (V c main_v76 : S1x128.Idx → EReal) (ix2 (0 : Fin 1) q) := by
  obtain ⟨-, -, e2, e3, -⟩ := idx_facts5 t
  unfold iblk5
  rw [View.read_apply]
  show V c main_v76 _ = V c main_v76 _
  congr 1
  funext a; apply Fin.ext
  match a with
  | ⟨0, _⟩ => show win5_1.index t 0 * 1 + 1 * 0 = 0; rw [e2]
  | ⟨1, _⟩ => show win5_1.index t 1 * 128 + 1 * q.val = q.val; rw [e3]; omega

/-- Row p, lane q of the output block at point t sits at row 5000 t + p, lane q of the output array. -/
theorem oblk5_emb (t : Fin cfg5.N) (p : Fin 5000) (q : Fin 128) (k : S50000x128.Idx)
    (hk0 : (k 0).val = 5000 * t.val + p.val) (hk1 : (k 1).val = q.val) :
    ((cfg5.win 2).blk t).view.emb (ix2 p q) = k := by
  obtain ⟨-, -, -, -, e4, e5⟩ := idx_facts5 t
  funext a; apply Fin.ext
  match a with
  | ⟨0, _⟩ => show win5_2.index t 0 * 5000 + 1 * p.val = (k 0).val; rw [e4, hk0]; omega
  | ⟨1, _⟩ => show win5_2.index t 1 * 128 + 1 * q.val = (k 1).val; rw [e5, hk1]; omega

/-- What point t writes back is block t of the stage's function of the two whole arrays. -/
theorem flushed5_eq (c : Dev nD) (t : Fin cfg5.N) :
    (dat5 (F := Ideal) V c).flushed 2 t
      = ((cfg5.win 2).blk t).view.read (Elt Ideal) (Cert.Spec.addRow (M := 50000) (N := 128) (V c main_v75) (V c main_v76)) := by
  show (cfg5.win 2).cut (grid5.coords t) ((dat5 V c).after 2 t) = _
  rw [after5_2]
  unfold out5_2
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  have hN : cfg5.N = 10 := N_5
  have ht : t.val < 10 := hN ▸ t.isLt
  have hp : p.val < 5000 := p.isLt
  let k : S50000x128.Idx := ix2 (⟨5000 * t.val + p.val, by omega⟩ : Fin 50000) q
  show k5_pay1 (iblk5 V c 1 t) (iblk5 V c 0 t) (ix2 p q)
      = (Cert.Spec.addRow (M := 50000) (N := 128) (V c main_v75) (V c main_v76)) (((cfg5.win 2).blk t).view.emb (ix2 p q))
  rw [pay5_apply, iblk5_0_apply V c t p q k rfl rfl, iblk5_1_apply V c t q, oblk5_emb t p q k rfl rfl]
  rfl

/-- An index of the output array is in point t's block iff each coordinate is in the block's range on its axis. -/
theorem mem_blk5 (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v77).slice (win5_2.rect t)).set ↔ _
  rw [View.set_slice_whole, Rect.mem_set_unit]
  exact Iff.rfl

/-- Row r of the output array is in the block of point r / 5000: the ten blocks tile the array. -/
theorem cover5 (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨-, -, -, -, e4, e5⟩ := idx_facts5 t
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; rw [e4, ht]; omega
  | ⟨1, _⟩ => show win5_2.index t (1 : Fin 2) * 128 ≤ (i 1).val ∧ (i 1).val < win5_2.index t (1 : Fin 2) * 128 + 128; rw [e5]; omega

/-- The third bias stage's output array: the input plus the bias row on every row. -/
theorem bias_region5 (c : Dev nD) : (dat5 (F := Ideal) V c).arrAt 2 cfg5.N = Cert.Spec.addRow (M := 50000) (N := 128) (V c main_v75) (V c main_v76) :=
  (dat5 (F := Ideal) V c).arrAt_eq_of_cover 2 _ (fun t _ => flushed5_eq V c t) cover5

/-! ## A vector laid out as one row -/

/-- The 128-vector reshaped to one row reads the vector at the row's lane. -/
theorem reshape_row128 (b : (⟨S128, .f32⟩ : BufTy).Contents (Elt Ideal)) : shapeCast S1x128 b shapeCasts_S128_S1x128 = Cert.Spec.asRow (N := 128) b := by
  funext j
  obtain ⟨u, q, rfl⟩ : ∃ (u : Fin 1) (q : Fin 128), j = ix2 u q := ⟨j 0, j 1, eq_ix2 j⟩
  exact shapeCast_a_1a_apply b shapeCasts_S128_S1x128 u q

/-- The 16-vector reshaped to one row reads the vector at the row's lane. -/
theorem reshape_row16 (b : (⟨S16, .f32⟩ : BufTy).Contents (Elt Ideal)) : shapeCast S1x16 b shapeCasts_S16_S1x16 = Cert.Spec.asRow (N := 16) b := by
  funext j
  obtain ⟨u, q, rfl⟩ : ∃ (u : Fin 1) (q : Fin 16), j = ix2 u q := ⟨j 0, j 1, eq_ix2 j⟩
  exact shapeCast_a_1a_apply b shapeCasts_S16_S1x16 u q

end Cert.KernelIdeal.Hand

end
-- ==== Proof.BiasRef.lean ====
/-
  The reference's three bias stages, each as one formula.

  The reference lays the bias vector out as one row, repeats the row down the 50000 rows, adds, and (in the first
  two stages) takes the maximum against an array filled with the value of the zero word. Read at an index, the
  repeated row is the vector at the index's lane, and the filled array is the zero word's value, so each stage is
  the row added to every row of its operand, clamped below where the stage clamps.
-/
import proofs.«110101_j3788161155718_1_alg».proof.Proof.RefReadP
import proofs.«110101_j3788161155718_1_alg».proof.Proof.Spec
import Idealize.ShloMosaic.Lib.ValueIdx
import Idealize.ShloMosaic.PureOps.Ideal.Laws

noncomputable section

namespace Cert.ReferenceIdeal.Hand

open Cert.ReferenceIdeal Cert.ReferenceIdeal.ReadP Idealize.ShloMosaic
open Idealize.ShloMosaic.ValueIdx

/-- The first stage: the scattered sums plus the first bias row, clamped below. -/
theorem bias_ref1 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) :
    val_main_v47 (F := Ideal) x0 x1 x3 x4 = Cert.Spec.relu (Cert.Spec.addRow (M := 50000) (N := 128) (val_main_v43 (F := Ideal) x0 x1 x3) (Cert.Spec.asRow (N := 128) x4)) := by
  funext i
  rw [val_main_v47_apply, val_main_v46_apply, val_main_v45_apply, val_main_v44_apply, val_main_call1_v0_apply, val_main_call1_cst_apply]
  generalize val_main_v43 (F := Ideal) x0 x1 x3 = y
  have hidx : idx_main_v44 (idx_main_v45 i) = ix1 (i 1) := funext fun a => Fin.ext (by match a with | ⟨0, _⟩ => rfl)
  rw [hidx]
  rfl

/-- The second stage: the scattered sums plus the second bias row, clamped below. -/
theorem bias_ref2 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v65 (F := Ideal) x0 x1 x3 x4 x5 x6 = Cert.Spec.relu (Cert.Spec.addRow (M := 50000) (N := 128) (val_main_v61 (F := Ideal) x0 x1 x3 x4 x5) (Cert.Spec.asRow (N := 128) x6)) := by
  funext i
  rw [val_main_v65_apply, val_main_v64_apply, val_main_v63_apply, val_main_v62_apply, val_main_call2_v0_apply, val_main_call2_cst_apply]
  generalize val_main_v61 (F := Ideal) x0 x1 x3 x4 x5 = y
  have hidx : idx_main_v62 (idx_main_v63 i) = ix1 (i 1) := funext fun a => Fin.ext (by match a with | ⟨0, _⟩ => rfl)
  rw [hidx]
  rfl

/-- The third stage: the scattered sums plus the third bias row. -/
theorem bias_ref3 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v82 (F := Ideal) x0 x1 x3 x4 x5 x6 x7 x8 = Cert.Spec.addRow (M := 50000) (N := 128) (val_main_v79 (F := Ideal) x0 x1 x3 x4 x5 x6 x7) (Cert.Spec.asRow (N := 128) x8) := by
  funext i
  rw [val_main_v82_apply, val_main_v81_apply, val_main_v80_apply]
  generalize val_main_v79 (F := Ideal) x0 x1 x3 x4 x5 x6 x7 = y
  have hidx : idx_main_v80 (idx_main_v81 i) = ix1 (i 1) := funext fun a => Fin.ext (by match a with | ⟨0, _⟩ => rfl)
  rw [hidx]
  rfl

end Cert.ReferenceIdeal.Hand

end
-- ==== Proof.HeadSpec.lean ====
/-
  The pooled head as a plain function on extended reals.

  A row's maximum is taken from the value of the negative infinity word over the row's entries, and then once more
  against that same value (the order in which the maxima are nested is kept, although `max` would allow any). A row
  softmax subtracts the row's maximum from every entry, exponentiates, and divides by the row's sum of exponentials.
  The head is the row softmax of a matrix product with a row vector added to every row.
-/
import proofs.«110101_j3788161155718_1_alg».proof.Proof.Spec

noncomputable section

namespace Cert.Spec

open Idealize.ShloMosaic Idealize.ShloMosaic.ValueIdx

/-- The maximum of row `r`, started from and then taken against the value of the negative infinity word. -/
def rowMax {M N : Nat} (l : (⟨2, ![M, N]⟩ : Shape).Idx → EReal) (r : Fin M) : EReal :=
  max (Ideal.ofBits .f32 0xFF800000#32)
    ((Finset.univ : Finset (Fin N)).fold max (Ideal.ofBits .f32 0xFF800000#32) (fun k => l (ix2 r k)))

/-- Every row normalised: the exponential of an entry less its row's maximum, over the row's sum of such exponentials. -/
def softmaxRows {M N : Nat} (l : (⟨2, ![M, N]⟩ : Shape).Idx → EReal) : (⟨2, ![M, N]⟩ : Shape).Idx → EReal :=
  fun i => Ideal.div (Ideal.exp (l i - rowMax l (i 0)))
    (∑ k : Fin N, Ideal.exp (l (ix2 (i 0) k) - rowMax l (i 0)))

/-- The pooled head: the row softmax of `p · w` with the row `b` added to every row. -/
def head (p : (⟨2, ![64, 128]⟩ : Shape).Idx → EReal) (w : (⟨2, ![128, 16]⟩ : Shape).Idx → EReal)
    (b : (⟨2, ![1, 16]⟩ : Shape).Idx → EReal) : (⟨2, ![64, 16]⟩ : Shape).Idx → EReal :=
  softmaxRows (addRow (mm (M := 64) (K := 128) (N := 16) p w) b)

end Cert.Spec

end
-- ==== Proof.LibKeepdims.lean ====
/-
  Keepdims layouts read at an index given by coordinates.

  A sum taken with `keepdims=True` leaves a unit axis where the summed axis was, so a kernel that brings a matrix down
  to a 1×1 cell one axis at a time passes through the column shapes: a vector `[a]` is made a column `[a, 1]`, a
  column is read back as a vector, laid as a row `[1, a]`, or broadcast across `b` columns. Each lemma reads one of
  these at an index written with `ix1` / `ix2`. The reason is the same every time: the unit coordinate `u : Fin 1`
  is `0`, so the row-major position of `(i, u)` in `[a, 1]` is `i · 1 + 0 = i`, the position of `i` in `[a]`
  and of `(0, i)` in `[1, a]`.

  These complete the leading-unit-axis forms of Lib/ValueLayout.lean (`shapeCast_a_1a_apply`, `shapeCast_1a_a_apply`,
  `broadcastTo_1b_ab_apply`) on the trailing side.
-/
import Idealize.ShloMosaic.Lib.ValueLayout

namespace Idealize.ShloMosaic.KeepdimsLayout

open Idealize.ShloMosaic Idealize.ShloMosaic.ValueIdx

variable {α : Type}

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` cast to a row `[1, a]` reads, at `(u, i)`, the operand at `(i, 0)`: the transpose of a
    column costs nothing, both lay the `a` entries out in order. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A row `[1, a]` cast to a column `[a, 1]` reads, at `(i, u)`, the operand at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.mul_one, Nat.add_zero, Nat.zero_mul, Nat.zero_add])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry vector `[1]` cast to a cell `[1, 1]` reads, anywhere, the operand's entry: the last step of a matrix
    summed down to one cell. -/
theorem shapeCast_1_11_apply (x : (⟨1, ![1]⟩ : Shape).Idx → α) (h : (⟨1, ![1]⟩ : Shape).ShapeCasts ⟨2, ![1, 1]⟩)
    (i u : Fin 1) : shapeCast ⟨2, ![1, 1]⟩ x h (ix2 i u) = x (ix1 (0 : Fin 1)) := by
  have hi : i = 0 := Subsingleton.elim _ _
  subst hi
  exact shapeCast_a_a1_apply x h 0 u

end Idealize.ShloMosaic.KeepdimsLayout
-- ==== Proof.HeadRegion.lean ====
/-
  The pooled head's region, read as one function of the three arrays it finds.

  The region's grid has one point, and every window's block is its whole array. The body's payload is taken in
  stages: the logits (the product of the pooled rows with the weights, accumulated into zero, plus the bias row laid
  over every row), each row's maximum (reduced from the value of the negative infinity word and then taken against
  it), the exponentials of the entries less their row's maximum, and each exponential over its row's sum. Each stage
  is read at an index written by its coordinates: the contraction as a sum over the contracted axis, a reduction over
  the columns as a fold or a sum over the column coordinate, a column `[64, 1]` made from a vector and spread over
  sixteen columns as the vector's entry for the row. Together they are the specification's `head`. What the one point
  writes back is then `head` of the three arrays read through a block at zero offsets with the array's own sizes,
  which is the array; that block covers every index, so the output array ends holding `head`.
-/
import proofs.«110101_j3788161155718_1_alg».proof.Proof.Gen.KernelIdeal.Frame
import proofs.«110101_j3788161155718_1_alg».proof.Proof.HeadSpec
import proofs.«110101_j3788161155718_1_alg».proof.Proof.LibKeepdims
import proofs.«110101_j3788161155718_1_alg».proof.Proof.LibDotRead
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The body's payload, in three stages -/

/-- The logits: the product accumulated into zero, with the bias row laid over every row. -/
def kLogits (x0 : Vec Ideal S64x128 .f32) (x1 : Vec Ideal S128x16 .f32) (x2 : Vec Ideal S1x16 .f32) : FVec Ideal S64x16 .f32 :=
  addf (matmul dot_S64x128_S128x16_S64x16_1_0_0_1_n_n none
      (truncf .bf16 (shapeCast S64x128 x0 shapeCasts_S64x128_S64x128) bitsLt_bf16_f32) (truncf .bf16 x1 bitsLt_bf16_f32)
      (constant S64x16 .f32 0x00000000#32))
    (broadcastTo S64x16 (shapeCast S1x16 x2 shapeCasts_S1x16_S1x16) broadcasts_S1x16_S64x16)

/-- The row maxima: reduced from the negative infinity word, then taken against it. -/
def kMax (l : FVec Ideal S64x16 .f32) : FVec Ideal S64 .f32 :=
  maximumf (broadcast S64 (Scalar.ofBits .f32 0xFF800000#32))
    (multiReduction .maximumf [1] S64 l 0xFF800000#32 reduces_S64x16_S64 (.inl rfl) rfl)

/-- The exponentials of the entries less their row's maximum. -/
def kExp (l : FVec Ideal S64x16 .f32) : FVec Ideal S64x16 .f32 :=
  exp (subf l (broadcastTo S64x16 (shapeCast S64x1 (kMax l) shapeCasts_S64_S64x1) broadcasts_S64x1_S64x16))

/-- Each exponential over its row's sum. -/
def kSoft (l : FVec Ideal S64x16 .f32) : FVec Ideal S64x16 .f32 :=
  divf (kExp l) (broadcastTo S64x16 (shapeCast S64x1
    (multiReduction .add [1] S64 (kExp l) 0x00000000#32 reduces_S64x16_S64 (.inl rfl) rfl) shapeCasts_S64_S64x1) broadcasts_S64x1_S64x16)

/-- The payload is these stages composed. -/
theorem pay_stages (x0 : Vec Ideal S64x128 .f32) (x1 : Vec Ideal S128x16 .f32) (x2 : Vec Ideal S1x16 .f32) :
    k6_pay1 x0 x1 x2 = kSoft (kLogits x0 x1 x2) := rfl

/-- The logits are the specification's product with the row added. -/
theorem kLogits_eq (x0 : Vec Ideal S64x128 .f32) (x1 : Vec Ideal S128x16 .f32) (x2 : Vec Ideal S1x16 .f32) :
    kLogits x0 x1 x2 = Cert.Spec.addRow (Cert.Spec.mm (M := 64) (K := 128) (N := 16) x0 x1) x2 := by
  funext j
  obtain ⟨p, q, rfl⟩ : ∃ (p : Fin 64) (q : Fin 16), j = ix2 p q := ⟨j 0, j 1, eq_ix2 j⟩
  unfold kLogits Cert.Spec.addRow Cert.Spec.mm
  rw [addf_apply, shapeCast_self, shapeCast_self, broadcastTo_1b_ab_apply]
  congr 1
  exact DotRead.matmul_plain_zero_apply 64 128 16 none _ _ p q

/-- A row's maximum as the payload takes it is the specification's. -/
theorem kMax_apply (l : FVec Ideal S64x16 .f32) (p : Fin 64) : kMax l (ix1 p) = Cert.Spec.rowMax l p := by
  unfold kMax Cert.Spec.rowMax
  rw [maximumf_apply, broadcast_apply]
  refine congrArg₂ max rfl ?_
  refine (Ideal.multiReduction_maximumf_single l 0xFF800000#32 reduces_S64x16_S64 (.inl rfl) rfl (ix1 p)).trans ?_
  refine congrArg (fun f => (Finset.univ : Finset (Fin 16)).fold max (Ideal.ofBits .f32 0xFF800000#32) f) ?_
  funext k
  show l (reduces_S64x16_S64.lift (ix1 p) k) = l (ix2 p k)
  exact congrArg l (funext fun a => Fin.ext (by match a with | ⟨0, _⟩ => rfl | ⟨1, _⟩ => rfl))

/-- An exponential of the payload, entry by entry. -/
theorem kExp_apply (l : FVec Ideal S64x16 .f32) (p : Fin 64) (q : Fin 16) :
    kExp l (ix2 p q) = Ideal.exp (l (ix2 p q) - Cert.Spec.rowMax l p) := by
  unfold kExp
  show FloatOps.exp (subf l _ (ix2 p q)) = _
  rw [Ideal.exp_def, subf_apply, KeepdimsLayout.broadcastTo_a1_ab_apply, KeepdimsLayout.shapeCast_a_a1_apply, kMax_apply]

/-- The normalised rows are the specification's row softmax. -/
theorem kSoft_eq (l : FVec Ideal S64x16 .f32) : kSoft l = Cert.Spec.softmaxRows l := by
  funext j
  obtain ⟨p, q, rfl⟩ : ∃ (p : Fin 64) (q : Fin 16), j = ix2 p q := ⟨j 0, j 1, eq_ix2 j⟩
  unfold kSoft Cert.Spec.softmaxRows
  rw [divf_apply, kExp_apply, KeepdimsLayout.broadcastTo_a1_ab_apply, KeepdimsLayout.shapeCast_a_a1_apply]
  refine congrArg₂ Ideal.div rfl
    ((Ideal.multiReduction_add_single (kExp l) 0x00000000#32 reduces_S64x16_S64 (.inl rfl) rfl (ix1 p)).trans ?_)
  show ∑ k : Fin 16, kExp l (reduces_S64x16_S64.lift (ix1 p) k) = ∑ k : Fin 16, Ideal.exp (l (ix2 p k) - Cert.Spec.rowMax l p)
  refine Finset.sum_congr rfl fun k _ => ?_
  rw [show reduces_S64x16_S64.lift (ix1 p) k = ix2 p k from
    funext fun a => Fin.ext (by match a with | ⟨0, _⟩ => rfl | ⟨1, _⟩ => rfl), kExp_apply]

/-- The payload is the specification's head of its three operands. -/
theorem head_pay (x0 : Vec Ideal S64x128 .f32) (x1 : Vec Ideal S128x16 .f32) (x2 : Vec Ideal S1x16 .f32) :
    k6_pay1 x0 x1 x2 = Cert.Spec.head x0 x1 x2 := by
  rw [pay_stages, kLogits_eq, kSoft_eq]
  rfl

/-! ## From the one point's blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the one-point grid: every window's block index is zero on both axes. -/
theorem idx_zero : ∀ t : Fin cfg6.N, (win6_0.index t (0 : Fin 2) = 0 ∧ win6_0.index t (1 : Fin 2) = 0)
    ∧ (win6_1.index t (0 : Fin 2) = 0 ∧ win6_1.index t (1 : Fin 2) = 0)
    ∧ (win6_2.index t (0 : Fin 2) = 0 ∧ win6_2.index t (1 : Fin 2) = 0)
    ∧ (win6_3.index t (0 : Fin 2) = 0 ∧ win6_3.index t (1 : Fin 2) = 0) :=
  (by decide +kernel : ∀ t : Fin grid6.N, _)

/-- The pooled rows' window holds the whole array. -/
theorem iblk_p (c : Dev nD) (t : Fin cfg6.N) : iblk6 V c 0 t = V c main_v89 := by
  obtain ⟨⟨e0, e1⟩, -⟩ := idx_zero t
  have hz' : (fun a => win6_0.index t a * main_v89.ty.shape.size a) = fun _ => 0 :=
    funext fun a => by fin_cases a <;> [(show win6_0.index t 0 * _ = 0; rw [e0, Nat.zero_mul]); (show win6_0.index t 1 * _ = 0; rw [e1, Nat.zero_mul])]
  unfold iblk6
  exact Memref.read_access_unit_zero (Elt Ideal) main_v89 hz' (fun a => by rw [congrFun hz' a]; simp) (V c main_v89)

/-- The weights' window holds the whole array. -/
theorem iblk_w (c : Dev nD) (t : Fin cfg6.N) : iblk6 V c 1 t = V c main_arg9 := by
  obtain ⟨-, ⟨e0, e1⟩, -⟩ := idx_zero t
  have hz' : (fun a => win6_1.index t a * main_arg9.ty.shape.size a) = fun _ => 0 :=
    funext fun a => by fin_cases a <;> [(show win6_1.index t 0 * _ = 0; rw [e0, Nat.zero_mul]); (show win6_1.index t 1 * _ = 0; rw [e1, Nat.zero_mul])]
  unfold iblk6
  exact Memref.read_access_unit_zero (Elt Ideal) main_arg9 hz' (fun a => by rw [congrFun hz' a]; simp) (V c main_arg9)

/-- The bias row's window holds the whole array. -/
theorem iblk_b (c : Dev nD) (t : Fin cfg6.N) : iblk6 V c 2 t = V c main_v90 := by
  obtain ⟨-, -, ⟨e0, e1⟩, -⟩ := idx_zero t
  have hz' : (fun a => win6_2.index t a * main_v90.ty.shape.size a) = fun _ => 0 :=
    funext fun a => by fin_cases a <;> [(show win6_2.index t 0 * _ = 0; rw [e0, Nat.zero_mul]); (show win6_2.index t 1 * _ = 0; rw [e1, Nat.zero_mul])]
  unfold iblk6
  exact Memref.read_access_unit_zero (Elt Ideal) main_v90 hz' (fun a => by rw [congrFun hz' a]; simp) (V c main_v90)

/-- What the one point writes back is the whole head, read through its block (which is the whole array). -/
theorem flushed_eq (c : Dev nD) (t : Fin cfg6.N) :
    (dat6 (F := Ideal) V c).flushed 3 t
      = ((cfg6.win 3).blk t).view.read (Elt Ideal) (Cert.Spec.head (V c main_v89) (V c main_arg9) (V c main_v90)) := by
  show (cfg6.win 3).cut (grid6.coords t) ((dat6 (F := Ideal) V c).after 3 t) = _
  rw [after6_3]
  unfold out6_3
  rw [View.canon_unit_zero hz]
  simp only [View.ld_unit_zero (S := S64x128) hz, View.ld_unit_zero (S := S128x16) hz, View.ld_unit_zero (S := S1x16) hz]
  rw [head_pay, iblk_p, iblk_w, iblk_b]
  obtain ⟨-, -, -, ⟨e0, e1⟩⟩ := idx_zero t
  have hz' : (fun a => win6_3.index t a * main_v91.ty.shape.size a) = fun _ => 0 :=
    funext fun a => by fin_cases a <;> [(show win6_3.index t 0 * _ = 0; rw [e0, Nat.zero_mul]); (show win6_3.index t 1 * _ = 0; rw [e1, Nat.zero_mul])]
  exact (Memref.read_access_unit_zero (Elt Ideal) main_v91 hz' (fun a => by rw [congrFun hz' a]; simp)
    (Cert.Spec.head (V c main_v89) (V c main_arg9) (V c main_v90))).symm

/-- The output array after the region is the head of the three input arrays as the region found them: the one
    point's block covers the array. -/
theorem head_region (c : Dev nD) :
    (dat6 (F := Ideal) V c).arrAt 3 cfg6.N = Cert.Spec.head (V c main_v89) (V c main_arg9) (V c main_v90) :=
  (dat6 (F := Ideal) V c).arrAt_eq_of_cover 3 (Cert.Spec.head (V c main_v89) (V c main_arg9) (V c main_v90))
    (fun t _ => flushed_eq V c t) fun i =>
    ⟨t6_0, flush6_3 t6_0, by
      show i ∈ ((View.whole main_v91).slice (win6_3.rect t6_0)).set
      rw [View.set_slice_whole, Rect.mem_set_unit]
      intro a
      have h0 : (i 0 : Nat) < 64 := (i 0).isLt
      have h1 : (i 1 : Nat) < 16 := (i 1).isLt
      match a with
      | ⟨0, _⟩ =>
        show win6_3.index t6_0 0 * win6_3.size 0 ≤ (i 0 : Nat) ∧ (i 0 : Nat) < win6_3.index t6_0 0 * win6_3.size 0 + win6_3.xsize (grid6.coords t6_0) 0
        rw [show win6_3.index t6_0 0 * win6_3.size 0 = 0 from by decide +kernel, show win6_3.xsize (grid6.coords t6_0) 0 = 64 from by decide +kernel]
        omega
      | ⟨1, _⟩ =>
        show win6_3.index t6_0 1 * win6_3.size 1 ≤ (i 1 : Nat) ∧ (i 1 : Nat) < win6_3.index t6_0 1 * win6_3.size 1 + win6_3.xsize (grid6.coords t6_0) 1
        rw [show win6_3.index t6_0 1 * win6_3.size 1 = 0 from by decide +kernel, show win6_3.xsize (grid6.coords t6_0) 1 = 16 from by decide +kernel]
        omega⟩

end Cert.KernelIdeal.Hand

end
-- ==== Proof.HeadRef.lean ====
/-
  The reference's pooled head, read as one function of the pooled rows, the weights and the bias.

  The reference computes the logits as a product plus the bias broadcast first to a row and then over the rows;
  takes each row's maximum by a reduction started from the value of the negative infinity word and then against that
  value broadcast; subtracts it (broadcast back over the columns), exponentiates, sums each row from the value of the
  zero word, and divides. Read at an index, every broadcast picks the entry of the same row, the maximum's reduction
  is the fold of `max` over the row's sixteen entries, and the sum's initial value is the extended real zero. That is
  the specification's `head`, with the pooled rows kept as one opaque array.
-/
import proofs.«110101_j3788161155718_1_alg».proof.Proof.RefReadP
import proofs.«110101_j3788161155718_1_alg».proof.Proof.HeadSpec
import Idealize.ShloMosaic.Lib.ValueIdx
import Idealize.ShloMosaic.PureOps.Reduce
import Idealize.ShloMosaic.PureOps.Ideal.Laws

noncomputable section

namespace Cert.ReferenceIdeal.Hand

open Cert.ReferenceIdeal Cert.ReferenceIdeal.Gen Cert.ReferenceIdeal.ReadP Idealize.ShloMosaic
open Idealize.ShloMosaic.ValueIdx

variable (x0 : (⟨S50000x128, .f32⟩ : BufTy).Contents (Elt Ideal)) (x1 : (⟨S2x800000, .i32⟩ : BufTy).Contents (Elt Ideal))
  (x2 : (⟨S50000, .i32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal)) (x9 : (⟨S128x16, .f32⟩ : BufTy).Contents (Elt Ideal))
  (x10 : (⟨S16, .f32⟩ : BufTy).Contents (Elt Ideal))

/-- The reference's logits are the specification's product with the bias laid out as a row and added to every row. -/
theorem logits_ref :
    val_main_v98 (F := Ideal) x0 x1 x2 x3 x4 x5 x6 x7 x8 x9 x10
      = Cert.Spec.addRow (Cert.Spec.mm (M := 64) (K := 128) (N := 16) (val_main_v94 (F := Ideal) x0 x1 x2 x3 x4 x5 x6 x7 x8) x9)
          (Cert.Spec.asRow (N := 16) x10) := by
  funext j
  obtain ⟨p, q, rfl⟩ : ∃ (p : Fin 64) (q : Fin 16), j = ix2 p q := ⟨j 0, j 1, eq_ix2 j⟩
  rw [val_main_v98_apply, val_main_v95_apply, val_main_v97_apply, val_main_v96_apply]
  generalize val_main_v94 (F := Ideal) x0 x1 x2 x3 x4 x5 x6 x7 x8 = y
  unfold Cert.Spec.addRow Cert.Spec.mm Cert.Spec.asRow
  rw [Ideal.addf_def]
  refine congrArg₂ (· + ·) (Finset.sum_congr rfl fun k _ => ?_) ?_
  · refine congrArg₂ (· * ·) (congrArg y ?_) (congrArg x9 ?_) <;>
      exact funext fun a => Fin.ext (by match a with | ⟨0, _⟩ => rfl | ⟨1, _⟩ => rfl)
  · exact congrArg x10 (funext fun a => Fin.ext (by match a with | ⟨0, _⟩ => rfl))

/-- The host's maximum over a row, started from the negative infinity word: the fold of `max` over the row. -/
theorem rowReduce_apply (l : (⟨S64x16, .f32⟩ : BufTy).Contents (Elt Ideal)) (p : Fin 64) :
    Host.reduce FloatOps.maximumf l (val_main_cst_19 (F := Ideal)) reducesTo_S64x16_S64_d1 h_S_ (ix1 p)
      = (Finset.univ : Finset (Fin 16)).fold max (Ideal.ofBits .f32 0xFF800000#32) (fun k => l (ix2 p k)) := by
  refine (Host.reduce_eq_fold_single (FloatOps.maximumf (F := Ideal) (φ := .f32)) l (val_main_cst_19 (F := Ideal))
    reducesTo_S64x16_S64_d1 (by decide) h_S_ (ix1 p)).trans ?_
  show (Finset.univ : Finset (Fin 16)).fold max (Ideal.ofBits .f32 0xFF800000#32) _ = _
  refine congrArg (fun f => (Finset.univ : Finset (Fin 16)).fold max (Ideal.ofBits .f32 0xFF800000#32) f) ?_
  funext k
  exact congrArg l (funext fun a => Fin.ext (by match a with | ⟨0, _⟩ => rfl | ⟨1, _⟩ => rfl))

/-- The reference's row maximum, taken against the broadcast negative infinity, is the specification's. -/
theorem max_ref (p : Fin 64) :
    val_main_v101 (F := Ideal) x0 x1 x2 x3 x4 x5 x6 x7 x8 x9 x10 (ix1 p)
      = Cert.Spec.rowMax (M := 64) (N := 16) (val_main_v98 (F := Ideal) x0 x1 x2 x3 x4 x5 x6 x7 x8 x9 x10) p := by
  rw [val_main_v101_apply, val_main_v100_apply, val_main_cst_20_apply]
  unfold val_main_v99 Cert.Spec.rowMax
  rw [rowReduce_apply]
  rfl

/-- The reference's exponentials, entry by entry. -/
theorem exp_ref (p : Fin 64) (q : Fin 16) :
    val_main_v105 (F := Ideal) x0 x1 x2 x3 x4 x5 x6 x7 x8 x9 x10 (ix2 p q)
      = Ideal.exp (val_main_v98 (F := Ideal) x0 x1 x2 x3 x4 x5 x6 x7 x8 x9 x10 (ix2 p q)
          - Cert.Spec.rowMax (M := 64) (N := 16) (val_main_v98 (F := Ideal) x0 x1 x2 x3 x4 x5 x6 x7 x8 x9 x10) p) := by
  rw [val_main_v105_apply, val_main_v104_apply, val_main_v103_apply, val_main_v102_apply,
    show idx_main_v102 (idx_main_v103 (ix2 p q)) = ix1 p from funext fun a => Fin.ext (by match a with | ⟨0, _⟩ => rfl),
    max_ref, Ideal.hostUnary_exp_def, Ideal.subf_def]

/-- The reference's pooled head is the specification's head of the pooled rows, the weights and the bias as a row. -/
theorem head_ref :
    val_main_v109 (F := Ideal) x0 x1 x2 x3 x4 x5 x6 x7 x8 x9 x10
      = Cert.Spec.head (val_main_v94 (F := Ideal) x0 x1 x2 x3 x4 x5 x6 x7 x8) x9 (Cert.Spec.asRow (N := 16) x10) := by
  funext j
  obtain ⟨p, q, rfl⟩ : ∃ (p : Fin 64) (q : Fin 16), j = ix2 p q := ⟨j 0, j 1, eq_ix2 j⟩
  rw [val_main_v109_apply, val_main_v108_apply, val_main_v107_apply, val_main_v106_apply, exp_ref,
    show idx_main_v107 (idx_main_v108 (ix2 p q)) = ix1 p from funext fun a => Fin.ext (by match a with | ⟨0, _⟩ => rfl)]
  simp only [show ∀ k : Fin 16, idx_main_v106 (ix1 p) k = ix2 p k from
    fun k => funext fun a => Fin.ext (by match a with | ⟨0, _⟩ => rfl | ⟨1, _⟩ => rfl), exp_ref]
  rw [val_main_cst_21_apply, Ideal.ofBits_def, Ideal.ofBits_zero_f32, zero_add, Ideal.hostDivf_def, logits_ref]
  generalize val_main_v94 (F := Ideal) x0 x1 x2 x3 x4 x5 x6 x7 x8 = y
  rfl

end Cert.ReferenceIdeal.Hand

end
-- ==== Proof.ChainB.lean ====
/-
  The idealized kernel's result, boundary by boundary, is the reference's stage.

  The kernel's program and the reference compute the same graph network. Outside the dense stages their host
  operations are the same operations in the same order on the same operands, so whenever the operands agree the
  results agree, operation by operation, with nothing opened: the gather of the transformed features along the
  edges, their scaling by the edge weights and the scatter-add back to the nodes, once per layer; the mean pool over
  the graphs. The dense stages differ only in form: a feature transform is computed block of rows by block of rows
  and is the one matrix product; a bias stage adds the bias row to every row (and clamps at zero in the first two
  layers); the head is the product, the bias and the row softmax. Walking the program's boundaries in order, each
  buffer the next segment reads holds the reference's value of the same stage, as a function of the argument
  arrays; at the last boundary the result buffer holds the reference's result.
-/
import proofs.«110101_j3788161155718_1_alg».proof.Proof.KWalk
import proofs.«110101_j3788161155718_1_alg».proof.Proof.ChainA
import proofs.«110101_j3788161155718_1_alg».proof.Proof.RefReadP
import proofs.«110101_j3788161155718_1_alg».proof.Proof.MatmulRegions
import proofs.«110101_j3788161155718_1_alg».proof.Proof.MatmulRef
import proofs.«110101_j3788161155718_1_alg».proof.Proof.BiasRegions
import proofs.«110101_j3788161155718_1_alg».proof.Proof.BiasRef
import proofs.«110101_j3788161155718_1_alg».proof.Proof.HeadRegion
import proofs.«110101_j3788161155718_1_alg».proof.Proof.HeadRef

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

open Cert.ReferenceIdeal.Hand

/-! ## Layer 1 -/

/-- The first feature transform: the blocks of rows of the product tile the one product. -/
theorem W4_v30 : W4 m ρ c (Proc.devRef .tc main_v30) = Cert.ReferenceIdeal.ReadP.val_main_v30 (F := Ideal) (m ((c : Thread nD τ).loc main_arg0)) (m ((c : Thread nD τ).loc main_arg3)) := by
  refine (W4_arr m ρ c 2).trans ?_
  rw [mm_region0 (V3 m ρ) c, mm_ref1]
  show Cert.Spec.mm (M := 50000) (K := 128) (N := 128) (W3 m ρ c (Proc.devRef .tc main_arg0)) (W3 m ρ c (Proc.devRef .tc main_arg3)) = _
  rw [W3_arg0, W3_arg3]

/-- The first aggregation: gathered along the edges, scaled by the edge weights, scatter-added at the destinations. -/
theorem W5_v43 : W5 m ρ c (Proc.devRef .tc main_v43) = Cert.ReferenceIdeal.ReadP.val_main_v43 (F := Ideal) (m ((c : Thread nD τ).loc main_arg0)) (m ((c : Thread nD τ).loc main_arg1)) (m ((c : Thread nD τ).loc main_arg3)) := by
  unfold W5; after_results_simp
  rewrite [W4_keep_v6, W4_keep_v29, W4_keep_v3, W3_v6, W3_v29, W3_v3, W4_v30]
  rfl

/-- The first bias as one row. -/
theorem W5_v44 : W5 m ρ c (Proc.devRef .tc main_v44) = Cert.Spec.asRow (N := 128) (m ((c : Thread nD τ).loc main_arg4)) := by
  unfold W5; after_results
  rewrite [W4_arg4]
  exact reshape_row128 _

/-- The first bias stage: the bias row added to every row, clamped at zero. -/
theorem W6_v45 : W6 m ρ c (Proc.devRef .tc main_v45) = Cert.ReferenceIdeal.ReadP.val_main_v47 (F := Ideal) (m ((c : Thread nD τ).loc main_arg0)) (m ((c : Thread nD τ).loc main_arg1)) (m ((c : Thread nD τ).loc main_arg3)) (m ((c : Thread nD τ).loc main_arg4)) := by
  refine (W6_arr m ρ c 2).trans ?_
  rw [bias_region1 (V5 m ρ) c, bias_ref1]
  show Cert.Spec.relu (Cert.Spec.addRow (M := 50000) (N := 128) (W5 m ρ c (Proc.devRef .tc main_v43)) (W5 m ρ c (Proc.devRef .tc main_v44))) = _
  rw [W5_v43, W5_v44]

/-! ## Layer 2 -/

/-- The second feature transform. -/
theorem W7_v46 : W7 m ρ c (Proc.devRef .tc main_v46) = Cert.ReferenceIdeal.ReadP.val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W7_arr m ρ c 2).trans ?_
  rw [mm_region2 (V6 m ρ) c, mm_ref2]
  show Cert.Spec.mm (M := 50000) (K := 128) (N := 128) (W6 m ρ c (Proc.devRef .tc main_v45)) (W6 m ρ c (Proc.devRef .tc main_arg5)) = _
  rw [W6_v45, W6_arg5]

/-- The second aggregation. -/
theorem W8_v59 : W8 m ρ c (Proc.devRef .tc main_v59) = Cert.ReferenceIdeal.ReadP.val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  unfold W8; after_results_simp
  rewrite [W7_keep_v6, W7_keep_v29, W7_keep_v3, W3_v6, W3_v29, W3_v3, W7_v46]
  rfl

/-- The second bias as one row. -/
theorem W8_v60 : W8 m ρ c (Proc.devRef .tc main_v60) = Cert.Spec.asRow (N := 128) (m ((c : Thread nD τ).loc main_arg6)) := by
  unfold W8; after_results
  rewrite [W7_arg6]
  exact reshape_row128 _

/-- The second bias stage. -/
theorem W9_v61 : W9 m ρ c (Proc.devRef .tc main_v61) = Cert.ReferenceIdeal.ReadP.val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W9_arr m ρ c 2).trans ?_
  rw [bias_region3 (V8 m ρ) c, bias_ref2]
  show Cert.Spec.relu (Cert.Spec.addRow (M := 50000) (N := 128) (W8 m ρ c (Proc.devRef .tc main_v59)) (W8 m ρ c (Proc.devRef .tc main_v60))) = _
  rw [W8_v59, W8_v60]

/-! ## Layer 3 -/

/-- The third feature transform. -/
theorem W10_v62 : W10 m ρ c (Proc.devRef .tc main_v62) = Cert.ReferenceIdeal.ReadP.val_main_v66 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 2).trans ?_
  rw [mm_region4 (V9 m ρ) c, mm_ref3]
  show Cert.Spec.mm (M := 50000) (K := 128) (N := 128) (W9 m ρ c (Proc.devRef .tc main_v61)) (W9 m ρ c (Proc.devRef .tc main_arg7)) = _
  rw [W9_v61, W9_arg7]

/-- The third aggregation. -/
theorem W11_v75 : W11 m ρ c (Proc.devRef .tc main_v75) = Cert.ReferenceIdeal.ReadP.val_main_v79 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  unfold W11; after_results_simp
  rewrite [W10_keep_v6, W10_keep_v29, W10_keep_v3, W3_v6, W3_v29, W3_v3, W10_v62]
  rfl

/-- The third bias as one row. -/
theorem W11_v76 : W11 m ρ c (Proc.devRef .tc main_v76) = Cert.Spec.asRow (N := 128) (m ((c : Thread nD τ).loc main_arg8)) := by
  unfold W11; after_results
  rewrite [W10_arg8]
  exact reshape_row128 _

/-- The third bias stage: no clamp. -/
theorem W12_v77 : W12 m ρ c (Proc.devRef .tc main_v77) = Cert.ReferenceIdeal.ReadP.val_main_v82 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m ρ c 2).trans ?_
  rw [bias_region5 (V11 m ρ) c, bias_ref3]
  show Cert.Spec.addRow (M := 50000) (N := 128) (W11 m ρ c (Proc.devRef .tc main_v75)) (W11 m ρ c (Proc.devRef .tc main_v76)) = _
  rw [W11_v75, W11_v76]

/-! ## The pool and the head -/

/-- The mean pool: the node features scatter-added per graph, divided by the graph's node count clamped below at one. -/
theorem W13_v89 : W13 m ρ c (Proc.devRef .tc main_v89) = Cert.ReferenceIdeal.ReadP.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold W13; after_results_simp
  rewrite [W12_v77, W12_arg2]
  rfl

/-- The head's bias as one row. -/
theorem W13_v90 : W13 m ρ c (Proc.devRef .tc main_v90) = Cert.Spec.asRow (N := 16) (m ((c : Thread nD τ).loc main_arg10)) := by
  unfold W13; after_results
  rewrite [W12_arg10]
  exact reshape_row16 _

/-- THE RESULT: the result buffer at the last boundary holds the reference's result of the argument arrays. -/
theorem W14_v91 : W14 m ρ c (Proc.devRef .tc main_v91) = Cert.ReferenceIdeal.ReadP.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W14_arr m ρ c 3).trans ?_
  rw [head_region (V13 m ρ) c, head_ref]
  show Cert.Spec.head (W13 m ρ c (Proc.devRef .tc main_v89)) (W13 m ρ c (Proc.devRef .tc main_arg9)) (W13 m ρ c (Proc.devRef .tc main_v90)) = _
  rw [W13_v89, W13_arg9, W13_v90]

end Cert.KernelIdeal.Hand

end
-- ==== Proof.Claims.lean ====
/-
  The five claims.

  Frames: the kernel's program, read at words and at extended reals, runs to its end without a fault and leaves its
  arguments as launched (the generated frame certificates); the reference, a program of host operations only, does so
  by its run. The idealization rewrote no operation, so there is nothing to preserve. The value claim: from memories
  that agree on the arguments, the idealized kernel's result buffer ends at the reference's stage of the last
  operation, as a function of the argument arrays (the walk through the kernel program's boundaries), and the
  reference's result buffer ends at the same function of the same arrays (its run, read one operation at a time).
-/
import proofs.«110101_j3788161155718_1_alg».proof.Defs
import proofs.«110101_j3788161155718_1_alg».proof.Proof.Gen.Kernel
import proofs.«110101_j3788161155718_1_alg».proof.Proof.Gen.Kernel.Frame
import proofs.«110101_j3788161155718_1_alg».proof.Proof.Gen.KernelIdeal
import proofs.«110101_j3788161155718_1_alg».proof.Proof.Gen.KernelIdeal.Frame
import proofs.«110101_j3788161155718_1_alg».proof.Proof.Gen.ReferenceIdeal
import proofs.«110101_j3788161155718_1_alg».proof.Proof.Gen.Pre_finite_inputs
import proofs.«110101_j3788161155718_1_alg».proof.Proof.KRun
import proofs.«110101_j3788161155718_1_alg».proof.Proof.ChainB
import proofs.«110101_j3788161155718_1_alg».proof.Proof.RefRunP
import proofs.«110101_j3788161155718_1_alg».proof.Proof.RefReadP

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both result buffers end at the reference's last stage of the argument arrays. -/
theorem algebraic : Cert.algebraic_KernelIdeal_ReferenceIdeal := by
  intro m ρ m' ρ' _ hagree
  refine ⟨fun c => Cert.ReferenceIdeal.ReadP.val_main_v109 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Hand.W14_v91 m ρ c), (h c).2⟩)
      (Cert.KernelIdeal.Hand.run_result m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10⟩ := hagree c
    rw [Cert.ReferenceIdeal.ReadP.val_main_v109_eq, e0, e1, e2, e3, e4, e5, e6, e7, e8, e9, e10]

end Cert.Proof.Claims

end
-- ==== Proof.lean ====
/- The proof of `Cert.Claim`: the three frames, the (empty) idealization ledger and the value claim of a three-layer
   graph convolution network with a mean pool and a softmax head, whose dense stages are pipelined kernels — the
   feature transforms as matrix products computed block of rows by block of rows, the bias stages, the pooled head —
   against the same network written with host operations only. Proof/Claims.lean proves the five claims; the
   witnesses of the programs' stated facts come first. -/
import proofs.«110101_j3788161155718_1_alg».proof.Defs
import proofs.«110101_j3788161155718_1_alg».proof.Proof.Gen.Kernel
import proofs.«110101_j3788161155718_1_alg».proof.Proof.Gen.Kernel.Skeleton
import proofs.«110101_j3788161155718_1_alg».proof.Proof.Gen.Kernel.Launch
import proofs.«110101_j3788161155718_1_alg».proof.Proof.Gen.Kernel.Points
import proofs.«110101_j3788161155718_1_alg».proof.Proof.Gen.Kernel.Frame
import proofs.«110101_j3788161155718_1_alg».proof.Proof.Gen.KernelIdeal
import proofs.«110101_j3788161155718_1_alg».proof.Proof.Gen.KernelIdeal.Skeleton
import proofs.«110101_j3788161155718_1_alg».proof.Proof.Gen.KernelIdeal.Launch
import proofs.«110101_j3788161155718_1_alg».proof.Proof.Gen.KernelIdeal.Points
import proofs.«110101_j3788161155718_1_alg».proof.Proof.Gen.KernelIdeal.Frame
import proofs.«110101_j3788161155718_1_alg».proof.Proof.Gen.ReferenceIdeal
import proofs.«110101_j3788161155718_1_alg».proof.Proof.Gen.Pre_finite_inputs
import proofs.«110101_j3788161155718_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
